-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x1024 .f32) (main_arg1 : FVec F S4096x1024 .f32) (main_arg2 : FVec F S4096 .f32) (main_arg3 : FVec F S1024x4096 .f32) (main_arg4 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S2048x1024 : Shape := ⟨2, ![2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S4096x128 : Shape := ⟨2, ![4096, 128]⟩
abbrev S1 : Shape := ⟨1, ![1]⟩
abbrev S1152x1024 : Shape := ⟨2, ![1152, 1024]⟩
abbrev S128x1024 : Shape := ⟨2, ![128, 1024]⟩
abbrev S1x1024 : Shape := ⟨2, ![1, 1024]⟩
abbrev S512x1024 : Shape := ⟨2, ![512, 1024]⟩
abbrev S1024x1024 : Shape := ⟨2, ![1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S_, .bf16⟩
  | .hbm, ⟨6, _⟩ => ⟨S4096x128, .bf16⟩
  | .hbm, ⟨7, _⟩ => ⟨S4096, .bf16⟩
  | .hbm, ⟨8, _⟩ => ⟨S_, .i32⟩
  | .hbm, ⟨9, _⟩ => ⟨S1, .i32⟩
  | .hbm, ⟨10, _⟩ => ⟨S4096x128, .bf16⟩
  | .hbm, ⟨11, _⟩ => ⟨S1024x4096, .bf16⟩
  | .hbm, ⟨12, _⟩ => ⟨S1152x1024, .bf16⟩
  | .hbm, ⟨13, _⟩ => ⟨S1x1024, .f32⟩
  | .hbm, ⟨14, _⟩ => ⟨S2048x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S1024x4096, .bf16⟩
  | .local _ .vmem, ⟨4, _⟩ => ⟨S128x1024, .bf16⟩
  | .local _ .vmem, ⟨5, _⟩ => ⟨S128x1024, .bf16⟩
  | .local _ .vmem, ⟨6, _⟩ => ⟨S512x1024, .f32⟩
  | .local _ .vmem, ⟨7, _⟩ => ⟨S512x1024, .f32⟩
  | .local _ .vmem, ⟨8, _⟩ => ⟨S1152x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1152x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S4096x128 : S_.BroadcastsInDim S4096x128 (![] : Fin 0 → Fin S4096x128.rank)
  bitsLt_bf16_f32 : FTy.bits .bf16 < FTy.bits .f32
  bcast_S_S1 : S_.BroadcastsInDim S1 (![] : Fin 0 → Fin S1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x1024_S128x1024_0_0 : ∀ a, (![0, 0] : Fin 2 → Nat) a + S128x1024.size a ≤ S128x1024.size a
  h_S128x1024 : 0 < S128x1024.numel
  packedbf16_S128x1024_S128x1024_0_0 : (Rect.unit (s := S128x1024) ![0, 0] S128x1024.size inb_S128x1024_S128x1024_0_0).PackedRows (EltTy.packing .bf16)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1152x1024_S1024x1024_0_0 : ∀ a, (![0, 0] : Fin 2 → Nat) a + S1024x1024.size a ≤ S1152x1024.size a
  h_S1024x1024 : 0 < S1024x1024.numel
  shapeCasts_S1024x1024_S1024x1024 : S1024x1024.ShapeCasts S1024x1024
  inb_S1152x1024_S1x1024_1024_0 : ∀ a, (![1024, 0] : Fin 2 → Nat) a + S1x1024.size a ≤ S1152x1024.size a
  h_S1x1024 : 0 < S1x1024.numel
  shapeCasts_S1x1024_S1x1024 : S1x1024.ShapeCasts S1x1024
  broadcasts_S1x1024_S512x1024 : S1x1024.Broadcasts S512x1024
  inb_S1x1024_S1x1024_0_0 : ∀ a, (![0, 0] : Fin 2 → Nat) a + S1x1024.size a ≤ S1x1024.size a
  scatter_S4096x128_S1_S4096_0_1_1_0_wf : ScatterDims.WF S4096x128 S1 S4096 [0] [1] [1] 0
  dot_S4096x128_S1024x4096_S128x1024_0_1_1_0_n_n_wf : DotDims.WF S4096x128 S1024x4096 S128x1024 [0] [1] [1] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x1024.size a
  hwx0_0 : ∀ i : grid0.Coords, EltTy.bits .f32 = 32 ∨ (Rect.block (s := S4096x1024) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S1152x1024.size a
  hwx0_3 : ∀ i : grid0.Coords, EltTy.bits .bf16 = 32 ∨ (Rect.block (s := S1152x1024) S128x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1152x1024.size a ≤ S1152x1024.size a
  hwx1_1 : ∀ i : grid1.Coords, EltTy.bits .bf16 = 32 ∨ (Rect.block (s := S1152x1024) S1152x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S2048x1024.size a
  hwx1_3 : ∀ i : grid1.Coords, EltTy.bits .f32 = 32 ∨ (Rect.block (s := S2048x1024) S512x1024.size (cc1_transform_3 i) (hinb1_3 i)).WholeWords (EltTy.packing .f32)

variable [Facts₀]

def scatter_S4096x128_S1_S4096_0_1_1_0 : ScatterDims S4096x128 S1 S4096 where
  updateWindowDims := [0]
  insertedWindowDims := [1]
  scatterDimsToOperandDims := [1]
  indexVectorDim := 0
  wf := scatter_S4096x128_S1_S4096_0_1_1_0_wf
def dot_S4096x128_S1024x4096_S128x1024_0_1_1_0_n_n : DotDims S4096x128 S1024x4096 S128x1024 where
  lhsContracting := [0]
  rhsContracting := [1]
  lhsNonContracting := [1]
  rhsNonContracting := [0]
  lhsBatch := []
  rhsBatch := []
  wf := dot_S4096x128_S1024x4096_S128x1024_0_1_1_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1152x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S0 : Shape := ⟨1, ![0]⟩
abbrev S_ : Shape := ⟨0, ![]⟩
abbrev S1x4096 : Shape := ⟨2, ![1, 4096]⟩
abbrev S1 : Shape := ⟨1, ![1]⟩
abbrev S1x1024 : Shape := ⟨2, ![1, 1024]⟩
abbrev S128x1024 : Shape := ⟨2, ![128, 1024]⟩
abbrev S128x4096 : Shape := ⟨2, ![128, 4096]⟩

abbrev nBuf : Space → Nat
  | .hbm => 30
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S0, .i32⟩
  | .hbm, ⟨6, _⟩ => ⟨S0, .i32⟩
  | .hbm, ⟨7, _⟩ => ⟨S0, .i32⟩
  | .hbm, ⟨8, _⟩ => ⟨S_, .f32⟩
  | .hbm, ⟨9, _⟩ => ⟨S1024x4096, .f32⟩
  | .hbm, ⟨10, _⟩ => ⟨S1024x4096, .f32⟩
  | .hbm, ⟨11, _⟩ => ⟨S1024x4096, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1x4096, .f32⟩
  | .hbm, ⟨18, _⟩ => ⟨S_, .i32⟩
  | .hbm, ⟨19, _⟩ => ⟨S1, .i32⟩
  | .hbm, ⟨20, _⟩ => ⟨S1x4096, .f32⟩
  | .hbm, ⟨21, _⟩ => ⟨S_, .f32⟩
  | .hbm, ⟨22, _⟩ => ⟨S1x1024, .f32⟩
  | .hbm, ⟨23, _⟩ => ⟨S_, .i32⟩
  | .hbm, ⟨24, _⟩ => ⟨S1, .i32⟩
  | .hbm, ⟨25, _⟩ => ⟨S1x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S1024x4096, .f32⟩
  | .local _ .vmem, ⟨3, _⟩ => ⟨S1x4096, .f32⟩
  | .local _ .vmem, ⟨4, _⟩ => ⟨S4096x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_c_4 : Ref sig .tc := ⟨.hbm, 18, rfl⟩
abbrev main_v7 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_c_6 : Ref sig .tc := ⟨.hbm, 23, rfl⟩
abbrev main_v10 : Ref sig .tc := ⟨.hbm, 24, rfl⟩
abbrev main_v11 : Ref sig .tc := ⟨.hbm, 25, rfl⟩
abbrev main_cst_7 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  hz_S0 : S0.numel = 0
  bcast_S_S1024x4096 : S_.BroadcastsInDim S1024x4096 (![] : Fin 0 → Fin S1024x4096.rank)
  transposes_S4096x1024_S1024x4096_1_0 : S4096x1024.Transposes [1, 0] S1024x4096
  bcast_S_S4096x1024 : S_.BroadcastsInDim S4096x1024 (![] : Fin 0 → Fin S4096x1024.rank)
  transposes_S1024x4096_S4096x1024_1_0 : S1024x4096.Transposes [1, 0] S4096x1024
  bcast_S_S1x4096 : S_.BroadcastsInDim S1x4096 (![] : Fin 0 → Fin S1x4096.rank)
  bcast_S_S1 : S_.BroadcastsInDim S1 (![] : Fin 0 → Fin S1.rank)
  bcast_S_S1x1024 : S_.BroadcastsInDim S1x1024 (![] : Fin 0 → Fin S1x1024.rank)
  bcast_S_S2048x1024 : S_.BroadcastsInDim S2048x1024 (![] : Fin 0 → Fin S2048x1024.rank)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  scatter_S1024x4096_S0_S1024x4096_01_n_n_0_wf : ScatterDims.WF S1024x4096 S0 S1024x4096 [0, 1] [] [] 0
  scatter_S4096x1024_S0_S4096x1024_01_n_n_0_wf : ScatterDims.WF S4096x1024 S0 S4096x1024 [0, 1] [] [] 0
  scatter_S1x4096_S1_S4096_0_0_0_0_wf : ScatterDims.WF S1x4096 S1 S4096 [0] [0] [0] 0
  scatter_S1x1024_S1_S1024_0_0_0_0_wf : ScatterDims.WF S1x1024 S1 S1024 [0] [0] [0] 0
  scatter_S2048x1024_S0_S2048x1024_01_n_n_0_wf : ScatterDims.WF S2048x1024 S0 S2048x1024 [0, 1] [] [] 0
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S2048x1024.size a
  hwx0_0 : ∀ i : grid0.Coords, EltTy.bits .f32 = 32 ∨ (Rect.block (s := S2048x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .f32 = 32 ∨ (Rect.block (s := S4096x1024) S4096x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S2048x1024.size a
  hwx0_5 : ∀ i : grid0.Coords, EltTy.bits .f32 = 32 ∨ (Rect.block (s := S2048x1024) S128x1024.size (cc0_transform_5 i) (hinb0_5 i)).WholeWords (EltTy.packing .f32)

variable [Facts₀]

def scatter_S1024x4096_S0_S1024x4096_01_n_n_0 : ScatterDims S1024x4096 S0 S1024x4096 where
  updateWindowDims := [0, 1]
  insertedWindowDims := []
  scatterDimsToOperandDims := []
  indexVectorDim := 0
  wf := scatter_S1024x4096_S0_S1024x4096_01_n_n_0_wf
def scatter_S4096x1024_S0_S4096x1024_01_n_n_0 : ScatterDims S4096x1024 S0 S4096x1024 where
  updateWindowDims := [0, 1]
  insertedWindowDims := []
  scatterDimsToOperandDims := []
  indexVectorDim := 0
  wf := scatter_S4096x1024_S0_S4096x1024_01_n_n_0_wf
def scatter_S1x4096_S1_S4096_0_0_0_0 : ScatterDims S1x4096 S1 S4096 where
  updateWindowDims := [0]
  insertedWindowDims := [0]
  scatterDimsToOperandDims := [0]
  indexVectorDim := 0
  wf := scatter_S1x4096_S1_S4096_0_0_0_0_wf
def scatter_S1x1024_S1_S1024_0_0_0_0 : ScatterDims S1x1024 S1 S1024 where
  updateWindowDims := [0]
  insertedWindowDims := [0]
  scatterDimsToOperandDims := [0]
  indexVectorDim := 0
  wf := scatter_S1x1024_S1_S1024_0_0_0_0_wf
def scatter_S2048x1024_S0_S2048x1024_01_n_n_0 : ScatterDims S2048x1024 S0 S2048x1024 where
  updateWindowDims := [0, 1]
  insertedWindowDims := []
  scatterDimsToOperandDims := []
  indexVectorDim := 0
  wf := scatter_S2048x1024_S0_S2048x1024_01_n_n_0_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v13) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibFiniteAll.lean ====
/-
  GENERAL LEMMA: a printed finiteness test read back, at the ideal values (no program is imported).

  A precondition "every entry of x is finite" is written `jnp.all(jnp.abs(x) < inf)` and prints as: the absolute value,
  a splat of the word of +∞, an ordered less-than, and a reduction by `and` over every axis from the constant 1. At the
  exact reading of the floats an entry is an extended real, and the test being 1 says it is neither infinity: it is a
  real number (`real_of_abs_lt_inf` for one value, `all_real` for an array of any shape).
-/
import Idealize.ShloMosaic.PureOps.Ideal
import Idealize.ShloMosaic.Lib.ValueIdx
import Idealize.ShloMosaic.Lib.ReduceAll
import Idealize.ShloMosaic.Lib.Pipeline.Value

noncomputable section

namespace Cert.FiniteAll

open Idealize.ShloMosaic Idealize.ShloMosaic.ValueIdx

/-- The scalar shape has one index. -/
instance : Subsingleton (⟨0, ![]⟩ : Shape).Idx := ⟨fun a b => funext fun d => d.elim0⟩

/-- One value: if |x| < +∞ tests true, x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) ⊤ = 1#1 := by rw [← htop]; exact h
  unfold Ideal.cmp at h'
  by_cases hlt : max (x : EReal) (-(x : EReal)) < ⊤
  · rw [max_lt_iff] at hlt
    have h1 : (x : EReal) ≠ ⊤ := hlt.1.ne
    have h2 : (x : EReal) ≠ ⊥ := by
      intro hh
      rw [hh] at hlt
      simp at hlt
    exact ⟨(x : EReal).toReal, (EReal.coe_toReal h1 h2).symm⟩
  · exfalso
    simp [hlt] at h'

/-- An array: if `jnp.all(|x| < +∞)` is 1, every entry of x is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi (cmpf .olt (Host.absf x) (broadcastInDim s ![] hb (constant (F := Ideal) ⟨0, ![]⟩ .f32 0x7F800000#32)))
          init hr hu ix0 = 1#1) (i : s.Idx) : ∃ r : ℝ, x i = (r : EReal) := by
  have e := Host.reduce_andi_all _ init hr hu ix0 h i
  refine real_of_abs_lt_inf (x i) ?_
  rw [cmpf_apply, broadcastInDim_apply _ hb _ i ix0 (fun a => a.elim0)] at e
  exact e

end Cert.FiniteAll

end
-- ==== Proof.Finite.lean ====
/-
  The precondition read back: every entry of the five argument arrays is a real number.

  The printed precondition is the conjunction, by `and` on one-bit words, of five tests "every |entry| is below +∞", one
  per argument. It being 1 gives each test 1, and a test being 1 gives every entry of its array as a real number.
-/
import proofs.«121754_g2000604377954742_pallasbulk_8_2_alg».proof.Pre_finite_inputs
import proofs.«121754_g2000604377954742_pallasbulk_8_2_alg».proof.Proof.Gen.Pre_finite_inputs
import proofs.«121754_g2000604377954742_pallasbulk_8_2_alg».proof.Proof.LibFiniteAll
import Idealize.ShloMosaic.Lib.Affine

noncomputable section

namespace Cert.Finite

open Idealize.ShloMosaic Idealize.ShloMosaic.ValueIdx Cert.Pre_finite_inputs

theorem reals (x0 : FVec Ideal S2048x1024 .f32) (x1 : FVec Ideal S4096x1024 .f32) (x2 : FVec Ideal S4096 .f32)
    (x3 : FVec Ideal S1024x4096 .f32) (x4 : FVec Ideal S1024 .f32)
    (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨FiniteAll.all_real x0 _ _ _ _ h0', FiniteAll.all_real x1 _ _ _ _ h1, FiniteAll.all_real x2 _ _ _ _ h2,
    FiniteAll.all_real x3 _ _ _ _ h3, FiniteAll.all_real x4 _ _ _ _ h4⟩

end Cert.Finite

end
-- ==== Proof.KerRun.lean ====
/-
  The idealized kernel's run with its result NAMED. The program is two pipelined regions among three stretches of host
  operations; the buffer contents at each boundary are a fold from the launch memory (`W1` after the first stretch,
  `W2` after the first region, `W3` after the second stretch, `W4` after the second region). Every weakly fair
  execution terminates with every unscoped buffer at `W4`: in particular the result buffer, which is what the value
  proof reads, beside the five arguments as launched.
-/
import proofs.«121754_g2000604377954742_pallasbulk_8_2_alg».proof.Proof.KernelIdealFrameP

set_option maxRecDepth 16384

noncomputable section

namespace Cert.KernelIdeal.KerRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched: the launch over the four segments, the last thread state
    read against the final memory. -/
theorem run_named : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.KerRun

end
-- ==== Proof.LibScatterSet.lean ====
/-
  A REPLACING SCATTER READ AT ONE OPERAND INDEX (every lemma for all scatter dimension numbers and shapes).

  A scatter whose body returns the update (x.at[...].set(upd)) is a left fold, over the update positions in row-major
  order, of the step that overwrites the operand element an update lands on with the update's value. Read at one operand
  index p: when no update lands on p the operand's element survives (scatter_set_miss); when update j lands on p and every
  update landing on p carries j's value, the result is that value (scatter_set_hit), whatever the order of the updates.
  Underneath, the same two facts for any left fold of overwriting steps over a list (foldl_miss, foldl_hit).
-/
import Idealize.ShloMosaic.PureOps.Ideal

noncomputable section

namespace Idealize.ShloMosaic.ScatterSet

open Idealize.ShloMosaic

/-! ## A replacing scatter, read at one operand index

`Host.scatter d (fun _ b => b)` folds, over the update positions in row-major order, the step that
overwrites the operand element an update lands on with the update's value. Two facts about such a
fold at one operand index `i`: if no update lands on `i` the start value survives, and if every
update landing on `i` carries the same value `v` (and either the start value is `v` or some update
does land) the result is `v`. -/

section Fold

variable {β ι γ : Type}

/-- A fold of overwriting steps at an index no step hits: the start value. -/
theorem foldl_miss (g : (ι → γ) → β → (ι → γ)) (hit : β → ι → Prop)
    (hg₂ : ∀ r n i, ¬ hit n i → g r n i = r i)
    (i : ι) (l : List β) (x : ι → γ) (h : ∀ n ∈ l, ¬ hit n i) : l.foldl g x i = x i := by
  induction l generalizing x with
  | nil => rfl
  | cons n l ih =>
    rw [List.foldl_cons, ih _ (fun m hm => h m (List.mem_cons_of_mem _ hm))]
    exact hg₂ x n i (h n (List.mem_cons_self ..))

/-- A fold of overwriting steps at an index where every hitting step writes `v`, when the start
    value is `v` or some step hits: `v`. -/
theorem foldl_hit (g : (ι → γ) → β → (ι → γ)) (hit : β → ι → Prop) (val : β → γ)
    (hg₁ : ∀ r n i, hit n i → g r n i = val n) (hg₂ : ∀ r n i, ¬ hit n i → g r n i = r i)
    (i : ι) (v : γ) (l : List β) (x : ι → γ) (hv : ∀ n ∈ l, hit n i → val n = v)
    (h0 : x i = v ∨ ∃ n ∈ l, hit n i) : l.foldl g x i = v := by
  induction l generalizing x with
  | nil =>
    rcases h0 with h0 | ⟨n, hn, _⟩
    · exact h0
    · exact absurd hn (List.not_mem_nil)
  | cons n l ih =>
    rw [List.foldl_cons]
    refine ih _ (fun m hm => hv m (List.mem_cons_of_mem _ hm)) ?_
    by_cases hn : hit n i
    · exact Or.inl ((hg₁ x n i hn).trans (hv n (List.mem_cons_self ..) hn))
    · rcases h0 with h0 | ⟨m, hm, hmi⟩
      · exact Or.inl ((hg₂ x n i hn).trans h0)
      · rcases List.mem_cons.1 hm with rfl | hm
        · exact absurd hmi hn
        · exact Or.inr ⟨m, hm, hmi⟩

end Fold

section Scatter

variable {α : Type} {s si u : Shape} {w : Nat}

/-- The step of a replacing scatter: update position `n` overwrites the element it lands on. -/
def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_set_eq_foldl (d : ScatterDims s si u) (x : s.Idx → α) (idx : IVec si w) (upd : u.Idx → α) :
    Host.scatter d (fun _ b => b) x idx upd = (List.finRange u.numel).foldl (setStep d idx upd) x := rfl

theorem setStep_hit (d : ScatterDims s si u) (idx : IVec si w) (upd : u.Idx → α) (r : s.Idx → α) (n : Fin u.numel)
    (i : s.Idx) (h : d.resultIdx? (u.rowMajor.symm n) idx = some i) :
    setStep d idx upd r n i = upd (u.rowMajor.symm n) := by
  unfold setStep
  rw [h]
  exact if_pos rfl

theorem setStep_miss (d : ScatterDims s si u) (idx : IVec si w) (upd : u.Idx → α) (r : s.Idx → α) (n : Fin u.numel)
    (i : s.Idx) (h : ¬ d.resultIdx? (u.rowMajor.symm n) idx = some i) :
    setStep d idx upd r n i = r i := by
  unfold setStep
  cases hres : d.resultIdx? (u.rowMajor.symm n) idx with
  | none => rfl
  | some i₀ => exact if_neg (fun e => h (by rw [hres, e]))

/-- A replacing scatter at an operand index no update lands on: the operand's element. -/
theorem scatter_set_miss (d : ScatterDims s si u) (x : s.Idx → α) (idx : IVec si w) (upd : u.Idx → α) (p : s.Idx)
    (h : ∀ j : u.Idx, ¬ d.resultIdx? j idx = some p) :
    Host.scatter d (fun _ b => b) x idx upd p = x p := by
  rw [scatter_set_eq_foldl]
  exact foldl_miss (setStep d idx upd) (fun n i => d.resultIdx? (u.rowMajor.symm n) idx = some i)
    (setStep_miss d idx upd) p _ x (fun n _ => h _)

/-- A replacing scatter at an operand index update `j₀` lands on, when every update landing there
    carries `j₀`'s value: that value. -/
theorem scatter_set_hit (d : ScatterDims s si u) (x : s.Idx → α) (idx : IVec si w) (upd : u.Idx → α) (p : s.Idx)
    (j₀ : u.Idx) (h₀ : d.resultIdx? j₀ idx = some p)
    (huniq : ∀ j : u.Idx, d.resultIdx? j idx = some p → upd j = upd j₀) :
    Host.scatter d (fun _ b => b) x idx upd p = upd j₀ := by
  rw [scatter_set_eq_foldl]
  refine foldl_hit (setStep d idx upd) (fun n i => d.resultIdx? (u.rowMajor.symm n) idx = some i)
    (fun n => upd (u.rowMajor.symm n)) (setStep_hit d idx upd) (setStep_miss d idx upd) p (upd j₀) _ x
    (fun n _ hn => huniq _ hn) (Or.inr ⟨u.rowMajor j₀, List.mem_finRange _, ?_⟩)
  show d.resultIdx? (u.rowMajor.symm (u.rowMajor j₀)) idx = some p
  rw [Equiv.symm_apply_apply]
  exact h₀

end Scatter

end Idealize.ShloMosaic.ScatterSet

end
-- ==== Proof.KerHost.lean ====
/-
  The arrays the two regions find, read back through the host operations to the launch memory.

  Before the first region the host builds the bias block: a [4096, 128] array of zeros whose column 0 is overwritten by
  the first bias (a replacing scatter of the 4096 updates at column index 0), and rereads the second-layer weights in
  the short format (the identity on extended reals); the first-layer weights are the argument itself. Between the
  regions it sets the second bias as a one-row matrix. The second region finds the input as launched, the composed
  matrix as the first region left it, and that one-row bias.
-/
import proofs.«121754_g2000604377954742_pallasbulk_8_2_alg».proof.Proof.KernelIdealFrameP
import proofs.«121754_g2000604377954742_pallasbulk_8_2_alg».proof.Proof.LibScatterSet
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KerHost

open Cert.KernelIdeal Cert.KernelIdeal.Gen Cert.KernelIdeal.GenP
open Idealize.ShloMosaic Idealize.ShloMosaic.TcCoe Idealize.ShloMosaic.ValueIdx Idealize.SL.Sem
open Idealize.ShloMosaic.StableHlo

/-! ## The bias block: a replacing scatter into column 0 -/

/-- Update h of the scatter lands at (h, 0) when the one scatter index is 0. -/
theorem bias_lands (idx : IVec S1 32) (hidx : ∀ q, idx q = 0#32) (h : Fin 4096) :
    scatter_S4096x128_S1_S4096_0_1_1_0.resultIdx? (ix1 h : S4096.Idx) idx = some (ix2 h (0 : Fin 128) : S4096x128.Idx) := by
  have hs0 : scatter_S4096x128_S1_S4096_0_1_1_0.start (ix1 h : S4096.Idx) idx (0 : Fin 2) = 0 := by
    unfold ScatterDims.start; simp [scatter_S4096x128_S1_S4096_0_1_1_0]
  have hs1 : scatter_S4096x128_S1_S4096_0_1_1_0.start (ix1 h : S4096.Idx) idx (1 : Fin 2) = 0 := by
    unfold ScatterDims.start; simp [scatter_S4096x128_S1_S4096_0_1_1_0, hidx]
  have hw0 : scatter_S4096x128_S1_S4096_0_1_1_0.window (ix1 h : S4096.Idx) (0 : Fin 2) = h.val := by
    unfold ScatterDims.window; rw [dif_pos (by decide)]; rfl
  have hw1 : scatter_S4096x128_S1_S4096_0_1_1_0.window (ix1 h : S4096.Idx) (1 : Fin 2) = 0 := by
    unfold ScatterDims.window; rw [dif_neg (by decide)]
  have hlt := h.isLt
  have hall : ∀ a : Fin S4096x128.rank,
      0 ≤ scatter_S4096x128_S1_S4096_0_1_1_0.start (ix1 h : S4096.Idx) idx a + (scatter_S4096x128_S1_S4096_0_1_1_0.window (ix1 h : S4096.Idx) a : Int)
      ∧ scatter_S4096x128_S1_S4096_0_1_1_0.start (ix1 h : S4096.Idx) idx a + (scatter_S4096x128_S1_S4096_0_1_1_0.window (ix1 h : S4096.Idx) a : Int) < (S4096x128.size a : Int) := by
    intro a
    match a with
    | ⟨0, _⟩ =>
      show 0 ≤ scatter_S4096x128_S1_S4096_0_1_1_0.start (ix1 h : S4096.Idx) idx (0 : Fin 2) + (scatter_S4096x128_S1_S4096_0_1_1_0.window (ix1 h : S4096.Idx) (0 : Fin 2) : Int)
        ∧ scatter_S4096x128_S1_S4096_0_1_1_0.start (ix1 h : S4096.Idx) idx (0 : Fin 2) + (scatter_S4096x128_S1_S4096_0_1_1_0.window (ix1 h : S4096.Idx) (0 : Fin 2) : Int) < ((4096 : Nat) : Int)
      rw [hs0, hw0]; omega
    | ⟨1, _⟩ =>
      show 0 ≤ scatter_S4096x128_S1_S4096_0_1_1_0.start (ix1 h : S4096.Idx) idx (1 : Fin 2) + (scatter_S4096x128_S1_S4096_0_1_1_0.window (ix1 h : S4096.Idx) (1 : Fin 2) : Int)
        ∧ scatter_S4096x128_S1_S4096_0_1_1_0.start (ix1 h : S4096.Idx) idx (1 : Fin 2) + (scatter_S4096x128_S1_S4096_0_1_1_0.window (ix1 h : S4096.Idx) (1 : Fin 2) : Int) < ((128 : Nat) : Int)
      rw [hs1, hw1]; omega
  unfold ScatterDims.resultIdx?
  rw [dif_pos hall]
  refine congrArg some (funext fun a => Fin.ext ?_)
  match a with
  | ⟨0, _⟩ =>
    show (scatter_S4096x128_S1_S4096_0_1_1_0.start (ix1 h : S4096.Idx) idx (0 : Fin 2) + (scatter_S4096x128_S1_S4096_0_1_1_0.window (ix1 h : S4096.Idx) (0 : Fin 2) : Int)).toNat = h.val
    rw [hs0, hw0]; omega
  | ⟨1, _⟩ =>
    show (scatter_S4096x128_S1_S4096_0_1_1_0.start (ix1 h : S4096.Idx) idx (1 : Fin 2) + (scatter_S4096x128_S1_S4096_0_1_1_0.window (ix1 h : S4096.Idx) (1 : Fin 2) : Int)).toNat = 0
    rw [hs1, hw1]; rfl

/-- The replacing scatter of the 4096 updates at column index 0, read in column 0: row h holds update h. -/
theorem bias_col0 {α : Type} (x : S4096x128.Idx → α) (idx : IVec S1 32) (hidx : ∀ q, idx q = 0#32) (upd : S4096.Idx → α) (h : Fin 4096) :
    Host.scatter scatter_S4096x128_S1_S4096_0_1_1_0 (fun _ b => b) x idx upd (ix2 h (0 : Fin 128) : S4096x128.Idx) = upd (ix1 h) := by
  refine ScatterSet.scatter_set_hit _ x idx upd _ (ix1 h : S4096.Idx) (bias_lands idx hidx h) fun k hk => ?_
  have e : k = (ix1 (k 0) : S4096.Idx) := eq_ix1 k
  rw [e, bias_lands idx hidx (k 0)] at hk
  have hk0 : (k 0 : Fin 4096) = h := congrFun (Option.some.inj hk) (0 : Fin 2)
  rw [e, hk0]

variable (m : (ℓ : Loc nD τ sig) → Buf (Elt Ideal) ℓ) (ρ : Dev nD → PrngReg)

/-! ## What the first region finds -/

/-- The first-layer weights are the argument as launched. -/
theorem V1_arg1 (c : Dev nD) : V1 m ρ c main_arg1 = m ((c : Thread nD τ).loc main_arg1) := by
  show StableHlo.after hostOps0 (W0 m ρ c) (Proc.devRef .tc main_arg1) = _
  after_results

/-- The second-layer weights reread in the short format: the argument's entries. -/
theorem V1_v4 (c : Dev nD) : (V1 m ρ c main_v4 : S1024x4096.Idx → EReal) = m ((c : Thread nD τ).loc main_arg3) := by
  show StableHlo.after hostOps0 (W0 m ρ c) (Proc.devRef .tc main_v4) = _
  after_results
  rfl

/-- The bias block's column 0 is the first bias. -/
theorem V1_v3_col0 (c : Dev nD) (h : Fin 4096) :
    (V1 m ρ c main_v3 : S4096x128.Idx → EReal) (ix2 h (0 : Fin 128)) = m ((c : Thread nD τ).loc main_arg2) (ix1 h) := by
  show StableHlo.after hostOps0 (W0 m ρ c) (Proc.devRef .tc main_v3) (ix2 h (0 : Fin 128)) = _
  after_results
  exact bias_col0 _ _ (fun q => rfl) _ h

/-! ## What the second region finds -/

/-- The input is the argument as launched. -/
theorem V3_arg0 (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- The composed matrix is what the first region's write-backs left. -/
theorem V3_v5 (c : Dev nD) : V3 m ρ c main_v5 = (dat0 (V1 m ρ) c).arrAt 3 cfg0.N := by
  show StableHlo.after hostOps1 (W2 m ρ c) (Proc.devRef .tc main_v5) = _
  after_results
  exact W2_arr m ρ c 3

/-- The second bias set as a one-row matrix, read at (0, o). -/
theorem V3_v6_apply (c : Dev nD) (o : Fin 1024) :
    (V3 m ρ c main_v6 : S1x1024.Idx → EReal) (ix2 (0 : Fin 1) o) = m ((c : Thread nD τ).loc main_arg4) (ix1 o) := by
  show StableHlo.after hostOps1 (W2 m ρ c) (Proc.devRef .tc main_v6) (ix2 (0 : Fin 1) o) = _
  after_results
  show shapeCast S1x1024 (W2 m ρ c (Proc.devRef .tc main_arg4)) shapeCasts_S1024_S1x1024 (ix2 (0 : Fin 1) o) = _
  rw [shapeCast_a_1a_apply, W2_of_ne m ρ c main_arg4 (by decide)]
  show StableHlo.after hostOps0 (W0 m ρ c) (Proc.devRef .tc main_arg4) (ix1 o) = _
  after_results

end Cert.KernelIdeal.KerHost

end
-- ==== Proof.Spec.lean ====
/-
  The two-layer linear map as ONE function of the five argument arrays, at the exact reading of the floats.

  With x : [2048, 1024], w1 : [4096, 1024], b1 : [4096], w2 : [1024, 4096], b2 : [1024] the result at (r, o) is

      (Σ_h (Σ_k x[r,k] · w1[h,k] + b1[h]) · w2[o,h]) + b2[o],

  the hidden layer x·w1ᵀ + b1 pushed through the second layer w2ᵀ, plus its bias. Sums are over the extended reals;
  nothing here assumes an entry finite.
-/
import Idealize.ShloMosaic.PureOps.Ideal
import Idealize.ShloMosaic.Lib.ValueIdx

noncomputable section

open scoped BigOperators

namespace Cert.Spec

open Idealize.ShloMosaic Idealize.ShloMosaic.ValueIdx

/-- The hidden layer at (r, h): Σ_k x[r,k] · w1[h,k] + b1[h]. -/
def hidden (x : FVec Ideal ⟨2, ![2048, 1024]⟩ .f32) (w1 : FVec Ideal ⟨2, ![4096, 1024]⟩ .f32) (b1 : FVec Ideal ⟨1, ![4096]⟩ .f32)
    (r : Fin 2048) (h : Fin 4096) : EReal :=
  (∑ k : Fin 1024, x (ix2 r k) * w1 (ix2 h k)) + b1 (ix1 h)

/-- The two layers at (r, o): Σ_h hidden[r,h] · w2[o,h] + b2[o]. -/
def twoLayer (x : FVec Ideal ⟨2, ![2048, 1024]⟩ .f32) (w1 : FVec Ideal ⟨2, ![4096, 1024]⟩ .f32) (b1 : FVec Ideal ⟨1, ![4096]⟩ .f32)
    (w2 : FVec Ideal ⟨2, ![1024, 4096]⟩ .f32) (b2 : FVec Ideal ⟨1, ![1024]⟩ .f32) (r : Fin 2048) (o : Fin 1024) : EReal :=
  (∑ h : Fin 4096, hidden x w1 b1 r h * w2 (ix2 o h)) + b2 (ix1 o)

/-- The result array: `twoLayer` at every index. -/
def refOut (x : FVec Ideal ⟨2, ![2048, 1024]⟩ .f32) (w1 : FVec Ideal ⟨2, ![4096, 1024]⟩ .f32) (b1 : FVec Ideal ⟨1, ![4096]⟩ .f32)
    (w2 : FVec Ideal ⟨2, ![1024, 4096]⟩ .f32) (b2 : FVec Ideal ⟨1, ![1024]⟩ .f32) : FVec Ideal ⟨2, ![2048, 1024]⟩ .f32 :=
  fun i => twoLayer x w1 b1 w2 b2 (i 0) (i 1)

theorem refOut_apply (x : FVec Ideal ⟨2, ![2048, 1024]⟩ .f32) (w1 : FVec Ideal ⟨2, ![4096, 1024]⟩ .f32) (b1 : FVec Ideal ⟨1, ![4096]⟩ .f32)
    (w2 : FVec Ideal ⟨2, ![1024, 4096]⟩ .f32) (b2 : FVec Ideal ⟨1, ![1024]⟩ .f32) (r : Fin 2048) (o : Fin 1024) :
    refOut x w1 b1 w2 b2 (ix2 r o) = twoLayer x w1 b1 w2 b2 r o := rfl

end Cert.Spec

end
-- ==== Proof.LibTwoLayers.lean ====
/-
  The law that joins the two programs: two linear layers compose.

  For real numbers x_k, a_{hk}, b_h, c_h:   Σ_k x_k · (Σ_h a_{hk} · c_h) + Σ_h b_h · c_h = Σ_h (Σ_k x_k · a_{hk} + b_h) · c_h
  (distribute the product over the inner sum, exchange the two sums). On the extended reals the same holds when every
  x, a, b, c is a real number — distributivity fails at the infinities, so the hypothesis is needed —, whatever is
  added to both sides afterwards.
-/
import Mathlib.Data.EReal.Basic
import Mathlib.Data.EReal.Operations
import Mathlib.Algebra.BigOperators.Ring.Finset
import Mathlib.Algebra.BigOperators.Group.Finset.Basic
import Mathlib.Algebra.BigOperators.Group.Finset.Sigma
import Mathlib.Tactic.Ring

open scoped BigOperators

namespace Cert.Algebra

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. -/
theorem compose_real {K H : Type*} [Fintype K] [Fintype H] (x : K → ℝ) (a : H → K → ℝ) (b c : H → ℝ) :
    (∑ k, x k * (∑ h, a h k * c h)) + ∑ h, b h * c h = ∑ h, ((∑ k, x k * a h k) + b h) * c h := by
  simp only [Finset.mul_sum, add_mul, Finset.sum_mul, Finset.sum_add_distrib]
  rw [Finset.sum_comm]
  congr 1
  refine Finset.sum_congr rfl fun h _ => Finset.sum_congr rfl fun k _ => ?_
  ring

/-- The law over the extended reals, for real entries, with anything added to both sides. -/
theorem compose_ereal {K H : Type*} [Fintype K] [Fintype H] (X : K → EReal) (A : H → K → EReal) (B C : H → EReal) (D : EReal)
    (hX : ∀ k, ∃ r : ℝ, X k = (r : EReal)) (hA : ∀ h k, ∃ r : ℝ, A h k = (r : EReal))
    (hB : ∀ h, ∃ r : ℝ, B h = (r : EReal)) (hC : ∀ h, ∃ r : ℝ, C h = (r : EReal)) :
    ((∑ k, X k * (∑ h, A h k * C h)) + ∑ h, B h * C h) + D = (∑ h, ((∑ k, X k * A h k) + B h) * C h) + D := by
  choose x hx using hX
  choose a ha using hA
  choose b hb using hB
  choose c hc using hC
  have e1 : (∑ k, X k * (∑ h, A h k * C h)) + ∑ h, B h * C h
      = (((∑ k, x k * (∑ h, a h k * c h)) + ∑ h, b h * c h : ℝ) : EReal) := by
    rw [EReal.coe_add, coe_sum, coe_sum]
    congr 1
    · refine Finset.sum_congr rfl fun k _ => ?_
      rw [EReal.coe_mul, coe_sum, hx k]
      congr 1
      refine Finset.sum_congr rfl fun h _ => ?_
      rw [EReal.coe_mul, ha h k, hc h]
    · refine Finset.sum_congr rfl fun h _ => ?_
      rw [EReal.coe_mul, hb h, hc h]
  have e2 : (∑ h, ((∑ k, X k * A h k) + B h) * C h)
      = ((∑ h, ((∑ k, x k * a h k) + b h) * c h : ℝ) : EReal) := by
    rw [coe_sum]
    refine Finset.sum_congr rfl fun h _ => ?_
    rw [EReal.coe_mul, EReal.coe_add, coe_sum, hb h, hc h]
    congr 2
    refine Finset.sum_congr rfl fun k _ => ?_
    rw [EReal.coe_mul, hx k, ha h k]
  rw [e1, e2, compose_real]

end Cert.Algebra
-- ==== Proof.KerPayload.lean ====
/-
  The two kernel bodies' stored values read at an index, at the exact reading of the floats.

  The first body multiplies, on the matrix unit into a zero accumulator, a [4096, 128] left operand by the [1024, 4096]
  second-layer weights, contracting the long axis of both: entry (j, o) is Σ_h lhs[h, j] · w2[o, h]. The left operand is
  the block of first-layer weights at grid points below 8 and the bias block at point 8, chosen by a signed comparison
  of the grid coordinate with 8. The second body multiplies a [512, 1024] block of inputs by the first 1024 rows of the
  composed matrix, and adds row 1024 of the composed matrix and the second bias, each repeated down the rows. Changes of
  float format are the identity on extended reals, a cast to the same shape is the identity.
-/
import proofs.«121754_g2000604377954742_pallasbulk_8_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KerPayload

open Cert.KernelIdeal Cert.KernelIdeal.Gen Idealize.ShloMosaic Idealize.ShloMosaic.ValueIdx

/-! ## The two products on the matrix unit -/

/-- The first body's product at (j, o): the long axis (4096) of both operands is summed. -/
theorem compose_dot_apply (lhs : FVec Ideal S4096x128 .bf16) (rhs : FVec Ideal S1024x4096 .bf16) (j : Fin 128) (o : Fin 1024) :
    matmul dot_S4096x128_S1024x4096_S128x1024_0_1_1_0_n_n none lhs rhs (constant (F := Ideal) S128x1024 .f32 0x00000000#32) (ix2 j o)
      = ∑ h : Fin 4096, lhs (ix2 h j) * rhs (ix2 o h) := by
  show FloatOps.matmul _ none lhs rhs _ (ix2 j o) = _
  rw [Ideal.matmul_constant_zero_apply,
    ← Equiv.sum_comp (contrEquiv1 dot_S4096x128_S1024x4096_S128x1024_0_1_1_0_n_n 4096 rfl rfl).symm]
  refine Finset.sum_congr rfl fun h _ => ?_
  have c2 := contrEquiv1_symm_val dot_S4096x128_S1024x4096_S128x1024_0_1_1_0_n_n 4096 rfl rfl h
  have l2 : dot_S4096x128_S1024x4096_S128x1024_0_1_1_0_n_n.lhsIdx (ix2 j o) ((contrEquiv1 _ 4096 rfl rfl).symm h) = ix2 h j := by
    funext ax; apply Fin.ext
    match ax with
    | ⟨0, _⟩ => simp [DotDims.lhsIdx, dot_S4096x128_S1024x4096_S128x1024_0_1_1_0_n_n]; exact c2
    | ⟨1, _⟩ => simp [DotDims.lhsIdx, dot_S4096x128_S1024x4096_S128x1024_0_1_1_0_n_n]; rfl
  have r2 : dot_S4096x128_S1024x4096_S128x1024_0_1_1_0_n_n.rhsIdx (ix2 j o) ((contrEquiv1 _ 4096 rfl rfl).symm h) = ix2 o h := by
    funext ax; apply Fin.ext
    match ax with
    | ⟨0, _⟩ => simp [DotDims.rhsIdx, dot_S4096x128_S1024x4096_S128x1024_0_1_1_0_n_n]; rfl
    | ⟨1, _⟩ => simp [DotDims.rhsIdx, dot_S4096x128_S1024x4096_S128x1024_0_1_1_0_n_n]; exact c2
  rw [l2, r2]

/-- The second body's product at (a, o): a plain rows-by-columns product over 1024 terms. -/
theorem apply_dot_apply (lhs : FVec Ideal S512x1024 .bf16) (rhs : FVec Ideal S1024x1024 .bf16) (a : Fin 512) (o : Fin 1024) :
    matmul dot_S512x1024_S1024x1024_S512x1024_1_0_0_1_n_n none lhs rhs (constant (F := Ideal) S512x1024 .f32 0x00000000#32) (ix2 a o)
      = ∑ k : Fin 1024, lhs (ix2 a k) * rhs (ix2 k o) := by
  show FloatOps.matmul _ none lhs rhs _ (ix2 a o) = _
  rw [Ideal.matmul_constant_zero_apply,
    ← Equiv.sum_comp (contrEquiv1 dot_S512x1024_S1024x1024_S512x1024_1_0_0_1_n_n 1024 rfl rfl).symm]
  refine Finset.sum_congr rfl fun k _ => ?_
  have c2 := contrEquiv1_symm_val dot_S512x1024_S1024x1024_S512x1024_1_0_0_1_n_n 1024 rfl rfl k
  have l2 : dot_S512x1024_S1024x1024_S512x1024_1_0_0_1_n_n.lhsIdx (ix2 a o) ((contrEquiv1 _ 1024 rfl rfl).symm k) = ix2 a k := by
    funext ax; apply Fin.ext
    match ax with
    | ⟨0, _⟩ => simp [DotDims.lhsIdx, dot_S512x1024_S1024x1024_S512x1024_1_0_0_1_n_n]; rfl
    | ⟨1, _⟩ => simp [DotDims.lhsIdx, dot_S512x1024_S1024x1024_S512x1024_1_0_0_1_n_n]; exact c2
  have r2 : dot_S512x1024_S1024x1024_S512x1024_1_0_0_1_n_n.rhsIdx (ix2 a o) ((contrEquiv1 _ 1024 rfl rfl).symm k) = ix2 k o := by
    funext ax; apply Fin.ext
    match ax with
    | ⟨0, _⟩ => simp [DotDims.rhsIdx, dot_S512x1024_S1024x1024_S512x1024_1_0_0_1_n_n]; exact c2
    | ⟨1, _⟩ => simp [DotDims.rhsIdx, dot_S512x1024_S1024x1024_S512x1024_1_0_0_1_n_n]; rfl
  rw [l2, r2]

/-! ## The grid coordinate compared with 8 -/

/-- Of the nine grid coordinates, the signed comparison with 8 is true exactly below 8. -/
theorem lt8_bit (n : Nat) (hn : n < 9) :
    Scalar.cmpi .slt (BitVec.ofNat 32 n) 8#32 = if n < 8 then 1#1 else 0#1 := by
  interval_cases n <;> rfl

/-! ## The first body's stored value -/

/-- At (j, o) the first body stores Σ_h lhs[h, j] · w2[o, h] with lhs the weight block when the comparison bit is 1 … -/
theorem compose_pay_lo (i : grid0.Coords) (hi : Scalar.cmpi .slt (BitVec.ofNat 32 (i 0).val) 8#32 = 1#1)
    (v1 : Vec Ideal S4096x128 .f32) (v3 : Vec Ideal S4096x128 .bf16) (v6 : Vec Ideal S1024x4096 .bf16) (j : Fin 128) (o : Fin 1024) :
    k0_pay1 (F := Ideal) i v1 v3 v6 (ix2 j o) = ∑ h : Fin 4096, v1 (ix2 h j) * v6 (ix2 o h) := by
  unfold k0_pay1
  simp only [hi, select_one, shapeCast_self]
  exact compose_dot_apply _ _ j o

/-- … and the bias block when it is 0. -/
theorem compose_pay_hi (i : grid0.Coords) (hi : Scalar.cmpi .slt (BitVec.ofNat 32 (i 0).val) 8#32 = 0#1)
    (v1 : Vec Ideal S4096x128 .f32) (v3 : Vec Ideal S4096x128 .bf16) (v6 : Vec Ideal S1024x4096 .bf16) (j : Fin 128) (o : Fin 1024) :
    k0_pay1 (F := Ideal) i v1 v3 v6 (ix2 j o) = ∑ h : Fin 4096, v3 (ix2 h j) * v6 (ix2 o h) := by
  unfold k0_pay1
  simp only [hi, select_zero, shapeCast_self]
  exact compose_dot_apply _ _ j o

/-! ## The second body's stored value -/

/-- At (a, o) the second body stores (Σ_k x[a, k] · mc[k, o] + bias row[o]) + b2[o]. -/
theorem apply_pay (v0 : Vec Ideal S512x1024 .f32) (v2 : Vec Ideal S1024x1024 .bf16) (v5 : Vec Ideal S1x1024 .bf16)
    (v10 : Vec Ideal S1x1024 .f32) (a : Fin 512) (o : Fin 1024) :
    k1_pay1 (F := Ideal) v0 v2 v5 v10 (ix2 a o)
      = ((∑ k : Fin 1024, v0 (ix2 a k) * v2 (ix2 k o)) + v5 (ix2 (0 : Fin 1) o)) + v10 (ix2 (0 : Fin 1) o) := by
  unfold k1_pay1
  simp only [shapeCast_self]
  show (matmul _ none _ _ _ (ix2 a o) + broadcastTo S512x1024 _ _ (ix2 a o)) + broadcastTo S512x1024 _ _ (ix2 a o) = _
  rw [broadcastTo_1b_ab_apply, broadcastTo_1b_ab_apply]
  exact congrArg (fun z => (z + v5 (ix2 (0 : Fin 1) o)) + v10 (ix2 (0 : Fin 1) o)) (apply_dot_apply _ _ a o)

end Cert.KernelIdeal.KerPayload

end
-- ==== Proof.KerRegion0.lean ====
/-
  The first region: the composed matrix as ONE function of the arrays the region finds.

  The region's grid has nine points. Point t < 8 writes rows 128·t … 128·t + 127 of the [1152, 1024] result: row
  128·t + j, column o holds Σ_h w1[h, 128·t + j] · w2[o, h], the product of the two weight matrices along the hidden
  axis. Point 8 writes rows 1024 … 1151 from the bias block: row 1024 + j, column o holds Σ_h bc[h, j] · w2[o, h]. The nine
  row bands tile the result, so after the region the whole array is the function `composed` below, whatever the
  region found in its three input arrays.
-/
import proofs.«121754_g2000604377954742_pallasbulk_8_2_alg».proof.Proof.KernelIdealFrameP
import proofs.«121754_g2000604377954742_pallasbulk_8_2_alg».proof.Proof.KerPayload

set_option maxRecDepth 16384

noncomputable section

open scoped BigOperators

namespace Cert.KernelIdeal.KerRegion0

open Cert.KernelIdeal Cert.KernelIdeal.Gen Cert.KernelIdeal.GenP Cert.KernelIdeal.KerPayload
open Idealize.ShloMosaic Idealize.ShloMosaic.TcCoe Idealize.ShloMosaic.ValueIdx Idealize.SL.Sem
open Idealize.ShloMosaic.Pipeline (Dat)

/-- The composed matrix with its bias rows: rows below 1024 are w1ᵀ·w2ᵀ, rows from 1024 on the bias block times w2ᵀ. -/
def composed (w1 : FVec Ideal S4096x1024 .f32) (bc : FVec Ideal S4096x128 .bf16) (w2 : FVec Ideal S1024x4096 .bf16) :
    FVec Ideal S1152x1024 .bf16 :=
  fun i => if (i 0).val < 1024
    then ∑ h : Fin 4096, w1 (ix2 h (⟨(i 0).val % 1024, Nat.mod_lt _ (by decide)⟩ : Fin 1024)) * w2 (ix2 (i 1) h)
    else ∑ h : Fin 4096, bc (ix2 h (⟨(i 0).val % 128, Nat.mod_lt _ (by decide)⟩ : Fin 128)) * w2 (ix2 (i 1) h)

/-- A row below 1024 of the composed matrix. -/
theorem composed_lo (w1 : FVec Ideal S4096x1024 .f32) (bc : FVec Ideal S4096x128 .bf16) (w2 : FVec Ideal S1024x4096 .bf16)
    (k : Fin 1024) (o : Fin 1024) (r : Fin 1152) (hr : r.val = k.val) :
    composed w1 bc w2 (ix2 r o) = ∑ h : Fin 4096, w1 (ix2 h k) * w2 (ix2 o h) := by
  unfold composed
  have hk := k.isLt
  rw [if_pos (show ((ix2 r o : S1152x1024.Idx) 0).val < 1024 by show r.val < 1024; omega)]
  refine Finset.sum_congr rfl fun h _ => ?_
  have e : (⟨((ix2 r o : S1152x1024.Idx) 0).val % 1024, Nat.mod_lt _ (by decide)⟩ : Fin 1024) = k :=
    Fin.ext (by show r.val % 1024 = k.val; omega)
  rw [e]

/-- A row from 1024 on of the composed matrix. -/
theorem composed_hi (w1 : FVec Ideal S4096x1024 .f32) (bc : FVec Ideal S4096x128 .bf16) (w2 : FVec Ideal S1024x4096 .bf16)
    (j : Fin 128) (o : Fin 1024) (r : Fin 1152) (hr : r.val = 1024 + j.val) :
    composed w1 bc w2 (ix2 r o) = ∑ h : Fin 4096, bc (ix2 h j) * w2 (ix2 o h) := by
  unfold composed
  have hj := j.isLt
  rw [if_neg (show ¬ ((ix2 r o : S1152x1024.Idx) 0).val < 1024 by show ¬ r.val < 1024; omega)]
  refine Finset.sum_congr rfl fun h _ => ?_
  have e : (⟨((ix2 r o : S1152x1024.Idx) 0).val % 128, Nat.mod_lt _ (by decide)⟩ : Fin 128) = j :=
    Fin.ext (by show r.val % 128 = j.val; omega)
  rw [e]

variable (V : (c : Dev nD) → (b : Ref sig .tc) → Buf (Elt Ideal) ((c : Thread nD τ).loc b))

theorem hz : (![0, 0] : Fin 2 → Nat) = fun _ => 0 := funext fun a => by fin_cases a <;> rfl

/-- The index maps over the nine points: the weight block moves along the columns with the point, stopping at 7; the bias
    block and the second-layer weights stay; the output band moves down with the point. -/
theorem idx_facts : ∀ t : Fin cfg0.N, win0_0.index t (0 : Fin 2) = 0 ∧ win0_0.index t (1 : Fin 2) = min t.val 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ ((grid0.coords t) 0).val = t.val ∧ t.val < 9 :=
  (by decide +kernel : ∀ t : Fin grid0.N, _)

/-- The weight block at a point, read at (h, j): column index·128 + j of the first-layer weights. -/
theorem wblock_apply (c : Dev nD) (t : Fin cfg0.N) (h : Fin 4096) (j : Fin 128) (k : S4096x1024.Idx)
    (hk0 : (k 0).val = h.val) (hk1 : (k 1).val = win0_0.index t (1 : Fin 2) * 128 + j.val) (h0 : win0_0.index t (0 : Fin 2) = 0) :
    iblk0 V c 0 t (ix2 h j) = V c main_arg1 k := by
  show V c main_arg1 (((cfg0.win 0).blk t).view.emb (ix2 h j)) = V c main_arg1 k
  refine congrArg _ (funext fun a => Fin.ext ?_)
  match a with
  | ⟨0, _⟩ => show win0_0.index t (0 : Fin 2) * 4096 + 1 * h.val = (k 0).val; omega
  | ⟨1, _⟩ => show win0_0.index t (1 : Fin 2) * 128 + 1 * j.val = (k 1).val; omega

/-- The bias block at a point is the whole bias array. -/
theorem bblock_apply (c : Dev nD) (t : Fin cfg0.N) (h : Fin 4096) (j : Fin 128)
    (h0 : win0_1.index t (0 : Fin 2) = 0) (h1 : win0_1.index t (1 : Fin 2) = 0) :
    iblk0 V c 1 t (ix2 h j) = V c main_v3 (ix2 h j) := by
  show V c main_v3 (((cfg0.win 1).blk t).view.emb (ix2 h j)) = V c main_v3 (ix2 h j)
  refine congrArg _ (funext fun a => Fin.ext ?_)
  match a with
  | ⟨0, _⟩ => show win0_1.index t (0 : Fin 2) * 4096 + 1 * h.val = h.val; omega
  | ⟨1, _⟩ => show win0_1.index t (1 : Fin 2) * 128 + 1 * j.val = j.val; omega

/-- The second-layer weights' block at a point is the whole array. -/
theorem w2block_apply (c : Dev nD) (t : Fin cfg0.N) (o : Fin 1024) (h : Fin 4096)
    (h0 : win0_2.index t (0 : Fin 2) = 0) (h1 : win0_2.index t (1 : Fin 2) = 0) :
    iblk0 V c 2 t (ix2 o h) = V c main_v4 (ix2 o h) := by
  show V c main_v4 (((cfg0.win 2).blk t).view.emb (ix2 o h)) = V c main_v4 (ix2 o h)
  refine congrArg _ (funext fun a => Fin.ext ?_)
  match a with
  | ⟨0, _⟩ => show win0_2.index t (0 : Fin 2) * 1024 + 1 * o.val = o.val; omega
  | ⟨1, _⟩ => show win0_2.index t (1 : Fin 2) * 4096 + 1 * h.val = h.val; omega

/-- WHAT POINT t WRITES BACK is band t of the composed matrix. -/
theorem flushed_eq (c : Dev nD) (t : Fin cfg0.N) :
    (dat0 V c).flushed 3 t
      = ((cfg0.win 3).blk t).view.read (Elt Ideal) (composed (V c main_arg1) (V c main_v3) (V c main_v4)) := by
  show (cfg0.win 3).cut (grid0.coords t) ((dat0 V c).after 3 t) = _
  rw [after0_3]
  unfold out0_3
  rw [View.canon_unit_zero hz]
  simp only [View.ld_unit_zero (S := S4096x128) hz, View.ld_unit_zero (S := S1024x4096) hz]
  obtain ⟨e00, e01, e10, e11, e20, e21, e30, e31, ec, ht⟩ := idx_facts t
  funext y
  obtain ⟨j, o, rfl⟩ : ∃ (j : Fin 128) (o : Fin 1024), y = ix2 j o := ⟨y 0, y 1, eq_ix2 y⟩
  have hj := j.isLt
  show k0_pay1 (F := Ideal) (grid0.coords t) (iblk0 V c 0 t) (iblk0 V c 1 t) (iblk0 V c 2 t) (ix2 j o)
    = composed (V c main_arg1) (V c main_v3) (V c main_v4) (((cfg0.win 3).blk t).view.emb (ix2 j o))
  have hemb : ((cfg0.win 3).blk t).view.emb (ix2 j o) = (ix2 (⟨t.val * 128 + j.val, by omega⟩ : Fin 1152) o : S1152x1024.Idx) := by
    funext a; apply Fin.ext
    match a with
    | ⟨0, _⟩ => show win0_3.index t (0 : Fin 2) * 128 + 1 * j.val = t.val * 128 + j.val; omega
    | ⟨1, _⟩ => show win0_3.index t (1 : Fin 2) * 1024 + 1 * o.val = o.val; omega
  rw [hemb]
  have hbit := lt8_bit ((grid0.coords t) 0).val (by omega)
  by_cases h8 : t.val < 8
  · rw [if_pos (by omega)] at hbit
    refine (compose_pay_lo (grid0.coords t) hbit _ _ _ j o).trans ?_
    refine (Finset.sum_congr rfl fun h _ => ?_).trans
      (composed_lo (V c main_arg1) (V c main_v3) (V c main_v4) (⟨t.val * 128 + j.val, by omega⟩ : Fin 1024) o _ rfl).symm
    rw [wblock_apply V c t h j (ix2 h (⟨t.val * 128 + j.val, by omega⟩ : Fin 1024)) rfl
        (by show t.val * 128 + j.val = win0_0.index t (1 : Fin 2) * 128 + j.val; omega) e00,
      w2block_apply V c t o h e20 e21]
  · rw [if_neg (by omega)] at hbit
    refine (compose_pay_hi (grid0.coords t) hbit _ _ _ j o).trans ?_
    refine (Finset.sum_congr rfl fun h _ => ?_).trans
      (composed_hi (V c main_arg1) (V c main_v3) (V c main_v4) j o _ (by show t.val * 128 + j.val = 1024 + j.val; omega)).symm
    rw [bblock_apply V c t h j e10 e11, w2block_apply V c t o h e20 e21]

/-- An index of the result is in point t's band iff each coordinate is in the band's range on its axis. -/
theorem mem_blk (t : Fin cfg0.N) (i : S1152x1024.Idx) :
    i ∈ ((cfg0.win 3).blk t).view.set ↔ ∀ a : Fin 2, win0_3.index t a * S128x1024.size a ≤ (i a).val ∧ (i a).val < win0_3.index t a * S128x1024.size a + S128x1024.size a := by
  show i ∈ ((View.whole main_v5).slice (win0_3.rect t)).set ↔ _
  rw [View.set_slice_whole, Rect.mem_set_unit]
  exact Iff.rfl

/-- Every row of the result lies in some point's band: row r in that of point r / 128. -/
theorem cover (i : S1152x1024.Idx) : ∃ t : Fin cfg0.N, (cfg0.win 3).flush t = true ∧ i ∈ ((cfg0.win 3).blk t).view.set := by
  have hi0 : (i 0).val < 1152 := (i 0).isLt
  have hi1 : (i 1).val < 1024 := (i 1).isLt
  have hN : cfg0.N = 9 := N_0
  let t : Fin cfg0.N := ⟨(i 0).val / 128, by rw [hN]; omega⟩
  obtain ⟨e00, e01, e10, e11, e20, e21, e30, e31, ec, ht⟩ := idx_facts t
  refine ⟨t, flush0_3 t, ?_⟩
  rw [mem_blk]
  intro a
  have htv : t.val = (i 0).val / 128 := rfl
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1024 ≤ (i 1).val ∧ (i 1).val < win0_3.index t (1 : Fin 2) * 1024 + 1024; omega

/-- THE RESULT ARRAY after the first region is the composed matrix of the three arrays the region found. -/
theorem final (c : Dev nD) :
    (dat0 V c).arrAt 3 cfg0.N = composed (V c main_arg1) (V c main_v3) (V c main_v4) :=
  (dat0 V c).arrAt_eq_of_cover 3 _ (fun t _ => flushed_eq V c t) cover

end Cert.KernelIdeal.KerRegion0

end
-- ==== Proof.KerRegion1.lean ====
/-
  The second region: the result as ONE function of the arrays the region finds.

  The region's grid has four points; point t reads rows 512·t … 512·t + 511 of the input, the whole [1152, 1024] composed
  matrix and the [1, 1024] second bias, and writes the same rows of the result: row r, column o holds

      (Σ_k x[r, k] · mc[k, o] + mc[1024, o]) + b2[0, o],

  the input row times the first 1024 rows of the composed matrix, plus its row 1024, plus the bias. The four row bands
  tile the result.
-/
import proofs.«121754_g2000604377954742_pallasbulk_8_2_alg».proof.Proof.KernelIdealFrameP
import proofs.«121754_g2000604377954742_pallasbulk_8_2_alg».proof.Proof.KerPayload

set_option maxRecDepth 16384

noncomputable section

open scoped BigOperators

namespace Cert.KernelIdeal.KerRegion1

open Cert.KernelIdeal Cert.KernelIdeal.Gen Cert.KernelIdeal.GenP Cert.KernelIdeal.KerPayload
open Idealize.ShloMosaic Idealize.ShloMosaic.TcCoe Idealize.ShloMosaic.ValueIdx Idealize.SL.Sem
open Idealize.ShloMosaic.Pipeline (Dat)

/-- The second region's result at (r, o), from the input, the composed matrix and the second bias as a one-row matrix. -/
def appliedAt (x : FVec Ideal S2048x1024 .f32) (mc : FVec Ideal S1152x1024 .bf16) (b2row : FVec Ideal S1x1024 .f32)
    (r : Fin 2048) (o : Fin 1024) : EReal :=
  ((∑ k : Fin 1024, x (ix2 r k) * mc (ix2 (⟨k.val, by have := k.isLt; omega⟩ : Fin 1152) o))
      + mc (ix2 (⟨1024, by decide⟩ : Fin 1152) o)) + b2row (ix2 (0 : Fin 1) o)

/-- The result array: `appliedAt` at every index. -/
def applied (x : FVec Ideal S2048x1024 .f32) (mc : FVec Ideal S1152x1024 .bf16) (b2row : FVec Ideal S1x1024 .f32) :
    FVec Ideal S2048x1024 .f32 :=
  fun i => appliedAt x mc b2row (i 0) (i 1)

variable (V : (c : Dev nD) → (b : Ref sig .tc) → Buf (Elt Ideal) ((c : Thread nD τ).loc b))

theorem hz : (![0, 0] : Fin 2 → Nat) = fun _ => 0 := funext fun a => by fin_cases a <;> rfl

/-- The index maps over the four points: the input and the output bands move down with the point, the composed matrix
    and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 4 :=
  (by decide +kernel : ∀ t : Fin grid1.N, _)

/-- The input block at a point, read at (a, k): row index·512 + a of the input. -/
theorem xblock_apply (c : Dev nD) (t : Fin cfg1.N) (a : Fin 512) (k : Fin 1024) (r : Fin 2048)
    (hr : r.val = win1_0.index t (0 : Fin 2) * 512 + a.val) (h1 : win1_0.index t (1 : Fin 2) = 0) :
    iblk1 V c 0 t (ix2 a k) = V c main_arg0 (ix2 r k) := by
  show V c main_arg0 (((cfg1.win 0).blk t).view.emb (ix2 a k)) = V c main_arg0 (ix2 r k)
  refine congrArg _ (funext fun ax => Fin.ext ?_)
  match ax with
  | ⟨0, _⟩ => show win1_0.index t (0 : Fin 2) * 512 + 1 * a.val = r.val; omega
  | ⟨1, _⟩ => show win1_0.index t (1 : Fin 2) * 1024 + 1 * k.val = k.val; omega

/-- The first 1024 rows of the composed matrix's block, read at (k, o). -/
theorem mc_lo_apply (c : Dev nD) (t : Fin cfg1.N) (k : Fin 1024) (o : Fin 1024) (r : Fin 1152) (hr : r.val = k.val)
    (h0 : win1_1.index t (0 : Fin 2) = 0) (h1 : win1_1.index t (1 : Fin 2) = 0) :
    View.ld (iblk1 V c 1 t) r1_1 (ix2 k o) = V c main_v5 (ix2 r o) := by
  show V c main_v5 (((cfg1.win 1).blk t).view.emb (r1_1.emb (ix2 k o))) = V c main_v5 (ix2 r o)
  refine congrArg _ (funext fun ax => Fin.ext ?_)
  match ax with
  | ⟨0, _⟩ => show win1_1.index t (0 : Fin 2) * 1152 + 1 * (0 + 1 * k.val) = r.val; omega
  | ⟨1, _⟩ => show win1_1.index t (1 : Fin 2) * 1024 + 1 * (0 + 1 * o.val) = o.val; omega

/-- Row 1024 of the composed matrix's block, read at (0, o). -/
theorem mc_row_apply (c : Dev nD) (t : Fin cfg1.N) (u : Fin 1) (o : Fin 1024)
    (h0 : win1_1.index t (0 : Fin 2) = 0) (h1 : win1_1.index t (1 : Fin 2) = 0) :
    View.ld (iblk1 V c 1 t) r1_2 (ix2 u o) = V c main_v5 (ix2 (⟨1024, by decide⟩ : Fin 1152) o) := by
  show V c main_v5 (((cfg1.win 1).blk t).view.emb (r1_2.emb (ix2 u o))) = V c main_v5 (ix2 (⟨1024, by decide⟩ : Fin 1152) o)
  have hu : u.val = 0 := by omega
  refine congrArg _ (funext fun ax => Fin.ext ?_)
  match ax with
  | ⟨0, _⟩ => show win1_1.index t (0 : Fin 2) * 1152 + 1 * (1024 + 1 * u.val) = 1024; omega
  | ⟨1, _⟩ => show win1_1.index t (1 : Fin 2) * 1024 + 1 * (0 + 1 * o.val) = o.val; omega

/-- The bias block at a point is the whole one-row array. -/
theorem b2block_apply (c : Dev nD) (t : Fin cfg1.N) (u : Fin 1) (o : Fin 1024)
    (h0 : win1_2.index t (0 : Fin 2) = 0) (h1 : win1_2.index t (1 : Fin 2) = 0) :
    iblk1 V c 2 t (ix2 u o) = V c main_v6 (ix2 u o) := by
  show V c main_v6 (((cfg1.win 2).blk t).view.emb (ix2 u o)) = V c main_v6 (ix2 u o)
  refine congrArg _ (funext fun ax => Fin.ext ?_)
  match ax with
  | ⟨0, _⟩ => show win1_2.index t (0 : Fin 2) * 1 + 1 * u.val = u.val; omega
  | ⟨1, _⟩ => show win1_2.index t (1 : Fin 2) * 1024 + 1 * o.val = o.val; omega

/-- WHAT POINT t WRITES BACK is band t of `applied`. -/
theorem flushed_eq (c : Dev nD) (t : Fin cfg1.N) :
    (dat1 V c).flushed 3 t
      = ((cfg1.win 3).blk t).view.read (Elt Ideal) (applied (V c main_arg0) (V c main_v5) (V c main_v6)) := by
  show (cfg1.win 3).cut (grid1.coords t) ((dat1 V c).after 3 t) = _
  rw [after1_3]
  unfold out1_3
  rw [View.canon_unit_zero hz]
  simp only [View.ld_unit_zero (S := S512x1024) hz, View.ld_unit_zero (S := S1x1024) hz]
  obtain ⟨e00, e01, e10, e11, e20, e21, e30, e31, ht⟩ := idx_facts t
  funext y
  obtain ⟨a, o, rfl⟩ : ∃ (a : Fin 512) (o : Fin 1024), y = ix2 a o := ⟨y 0, y 1, eq_ix2 y⟩
  have ha := a.isLt
  show k1_pay1 (F := Ideal) (iblk1 V c 0 t) (View.ld (iblk1 V c 1 t) r1_1) (View.ld (iblk1 V c 1 t) r1_2) (iblk1 V c 2 t) (ix2 a o)
    = applied (V c main_arg0) (V c main_v5) (V c main_v6) (((cfg1.win 3).blk t).view.emb (ix2 a o))
  have hemb : ((cfg1.win 3).blk t).view.emb (ix2 a o) = (ix2 (⟨t.val * 512 + a.val, by omega⟩ : Fin 2048) o : S2048x1024.Idx) := by
    funext ax; apply Fin.ext
    match ax with
    | ⟨0, _⟩ => show win1_3.index t (0 : Fin 2) * 512 + 1 * a.val = t.val * 512 + a.val; omega
    | ⟨1, _⟩ => show win1_3.index t (1 : Fin 2) * 1024 + 1 * o.val = o.val; omega
  rw [hemb]
  refine (apply_pay _ _ _ _ a o).trans ?_
  show _ = appliedAt (V c main_arg0) (V c main_v5) (V c main_v6) (⟨t.val * 512 + a.val, by omega⟩ : Fin 2048) o
  unfold appliedAt
  rw [mc_row_apply V c t 0 o e10 e11, b2block_apply V c t 0 o e20 e21]
  refine congrArg (fun z => (z + V c main_v5 (ix2 (⟨1024, by decide⟩ : Fin 1152) o)) + V c main_v6 (ix2 (0 : Fin 1) o)) ?_
  refine Finset.sum_congr rfl fun k _ => ?_
  rw [xblock_apply V c t a k (⟨t.val * 512 + a.val, by omega⟩ : Fin 2048) (by show t.val * 512 + a.val = win1_0.index t (0 : Fin 2) * 512 + a.val; omega) e01,
    mc_lo_apply V c t k o (⟨k.val, by have := k.isLt; omega⟩ : Fin 1152) rfl e10 e11]

/-- An index of the result is in point t's band iff each coordinate is in the band's range on its axis. -/
theorem mem_blk (t : Fin cfg1.N) (i : S2048x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v7).slice (win1_3.rect t)).set ↔ _
  rw [View.set_slice_whole, Rect.mem_set_unit]
  exact Iff.rfl

/-- Every row of the result lies in some point's band: row r in that of point r / 512. -/
theorem cover (i : S2048x1024.Idx) : ∃ t : Fin cfg1.N, (cfg1.win 3).flush t = true ∧ i ∈ ((cfg1.win 3).blk t).view.set := by
  have hi0 : (i 0).val < 2048 := (i 0).isLt
  have hi1 : (i 1).val < 1024 := (i 1).isLt
  have hN : cfg1.N = 4 := N_1
  let t : Fin cfg1.N := ⟨(i 0).val / 512, by rw [hN]; omega⟩
  obtain ⟨e00, e01, e10, e11, e20, e21, e30, e31, ht⟩ := idx_facts t
  refine ⟨t, flush1_3 t, ?_⟩
  rw [mem_blk]
  intro a
  have htv : t.val = (i 0).val / 512 := rfl
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE RESULT ARRAY after the second region is `applied` of the three arrays the region found. -/
theorem final (c : Dev nD) :
    (dat1 V c).arrAt 3 cfg1.N = applied (V c main_arg0) (V c main_v5) (V c main_v6) :=
  (dat1 V c).arrAt_eq_of_cover 3 _ (fun t _ => flushed_eq V c t) cover

end Cert.KernelIdeal.KerRegion1

end
-- ==== Proof.KerCompose.lean ====
/-
  The second region applied to the first region's composed matrix is the two-layer map, for real entries.

  With mc the composed matrix (rows below 1024: Σ_h w1[h,k]·w2[o,h]; row 1024: Σ_h bc[h,0]·w2[o,h], and column 0 of the bias
  block bc is the first bias), the second region's result at (r, o) is

      (Σ_k x[r,k] · (Σ_h w1[h,k]·w2[o,h]) + Σ_h b1[h]·w2[o,h]) + b2[o],

  which for real x, w1, b1, w2 is (Σ_h (Σ_k x[r,k]·w1[h,k] + b1[h]) · w2[o,h]) + b2[o] by distributing and exchanging the
  sums; the second bias may be any extended real.
-/
import proofs.«121754_g2000604377954742_pallasbulk_8_2_alg».proof.Proof.Spec
import proofs.«121754_g2000604377954742_pallasbulk_8_2_alg».proof.Proof.LibTwoLayers
import proofs.«121754_g2000604377954742_pallasbulk_8_2_alg».proof.Proof.KerRegion0
import proofs.«121754_g2000604377954742_pallasbulk_8_2_alg».proof.Proof.KerRegion1

noncomputable section

open scoped BigOperators

namespace Cert.KernelIdeal.KerCompose

open Cert.KernelIdeal Cert.KernelIdeal.KerRegion0 Cert.KernelIdeal.KerRegion1
open Idealize.ShloMosaic Idealize.ShloMosaic.ValueIdx

theorem applied_composed (x : FVec Ideal S2048x1024 .f32) (w1 : FVec Ideal S4096x1024 .f32) (b1 : FVec Ideal S4096 .f32)
    (w2 : FVec Ideal S1024x4096 .f32) (b2 : FVec Ideal S1024 .f32)
    (bc : FVec Ideal S4096x128 .bf16) (hbc : ∀ h : Fin 4096, bc (ix2 h (0 : Fin 128)) = b1 (ix1 h))
    (b2row : FVec Ideal S1x1024 .f32) (hb2 : ∀ o : Fin 1024, b2row (ix2 (0 : Fin 1) o) = b2 (ix1 o))
    (hx : ∀ i, ∃ r : ℝ, x i = (r : EReal)) (hw1 : ∀ i, ∃ r : ℝ, w1 i = (r : EReal))
    (hb1 : ∀ i, ∃ r : ℝ, b1 i = (r : EReal)) (hw2 : ∀ i, ∃ r : ℝ, w2 i = (r : EReal)) :
    applied x (composed w1 bc w2) b2row = Cert.Spec.refOut x w1 b1 w2 b2 := by
  funext i
  obtain ⟨r, o, rfl⟩ : ∃ (r : Fin 2048) (o : Fin 1024), i = ix2 r o := ⟨i 0, i 1, eq_ix2 i⟩
  show appliedAt x (composed w1 bc w2) b2row r o = Cert.Spec.twoLayer x w1 b1 w2 b2 r o
  unfold appliedAt Cert.Spec.twoLayer Cert.Spec.hidden
  have elo : ∀ k : Fin 1024, composed w1 bc w2 (ix2 (⟨k.val, by have := k.isLt; omega⟩ : Fin 1152) o)
      = ∑ h : Fin 4096, w1 (ix2 h k) * w2 (ix2 o h) := fun k => composed_lo w1 bc w2 k o _ rfl
  have ehi : composed w1 bc w2 (ix2 (⟨1024, by decide⟩ : Fin 1152) o) = ∑ h : Fin 4096, b1 (ix1 h) * w2 (ix2 o h) := by
    rw [composed_hi w1 bc w2 (0 : Fin 128) o _ rfl]
    exact Finset.sum_congr rfl fun h _ => by rw [hbc h]
  rw [ehi, hb2 o]
  simp only [elo]
  exact Cert.Algebra.compose_ereal (fun k => x (ix2 r k)) (fun h k => w1 (ix2 h k)) (fun h => b1 (ix1 h))
    (fun h => w2 (ix2 o h)) (b2 (ix1 o)) (fun k => hx _) (fun h k => hw1 _) (fun h => hb1 _) (fun h => hw2 _)

end Cert.KernelIdeal.KerCompose

end
-- ==== Proof.KerValue.lean ====
/-
  The idealized kernel's result is the two-layer map of its arguments, when every entry of x, w1, b1, w2 is real.

  The result buffer ends at what the second region's write-backs leave; that is the second region's function of the
  input as launched, the composed matrix the first region left, and the second bias as a one-row matrix; the composed
  matrix is the first region's function of the first-layer weights as launched, the bias block (whose column 0 is the first
  bias) and the second-layer weights. For real entries the two regions compose to the reference's two layers.
-/
import proofs.«121754_g2000604377954742_pallasbulk_8_2_alg».proof.Proof.KerRun
import proofs.«121754_g2000604377954742_pallasbulk_8_2_alg».proof.Proof.KerHost
import proofs.«121754_g2000604377954742_pallasbulk_8_2_alg».proof.Proof.KerCompose

noncomputable section

namespace Cert.KernelIdeal.KerValue

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result buffer's last contents are the two-layer map of the arguments as launched. -/
theorem result_eq (c : Dev nD)
    (hx : ∀ i, ∃ r : ℝ, m ((c : Thread nD τ).loc main_arg0) i = (r : EReal))
    (hw1 : ∀ i, ∃ r : ℝ, m ((c : Thread nD τ).loc main_arg1) i = (r : EReal))
    (hb1 : ∀ i, ∃ r : ℝ, m ((c : Thread nD τ).loc main_arg2) i = (r : EReal))
    (hw2 : ∀ i, ∃ r : ℝ, m ((c : Thread nD τ).loc main_arg3) i = (r : EReal)) :
    W4 m ρ c (Proc.devRef .tc main_v7)
      = Cert.Spec.refOut (m ((c : Thread nD τ).loc main_arg0)) (m ((c : Thread nD τ).loc main_arg1))
          (m ((c : Thread nD τ).loc main_arg2)) (m ((c : Thread nD τ).loc main_arg3)) (m ((c : Thread nD τ).loc main_arg4)) := by
  refine (W4_arr m ρ c 3).trans ?_
  rw [KerRegion1.final (V3 m ρ) c, KerHost.V3_arg0, KerHost.V3_v5, KerRegion0.final (V1 m ρ) c, KerHost.V1_arg1, KerHost.V1_v4]
  exact KerCompose.applied_composed _ _ (m ((c : Thread nD τ).loc main_arg2)) _ (m ((c : Thread nD τ).loc main_arg4))
    (V1 m ρ c main_v3) (KerHost.V1_v3_col0 m ρ c) (V3 m ρ c main_v6) (KerHost.V3_v6_apply m ρ c) hx hw1 hb1 hw2

/-- The run with the result at the specification, the arguments unchanged. -/
theorem run
    (hfin : ∀ c : Dev nD, (∀ i, ∃ r : ℝ, m ((c : Thread nD τ).loc main_arg0) i = (r : EReal))
      ∧ (∀ i, ∃ r : ℝ, m ((c : Thread nD τ).loc main_arg1) i = (r : EReal))
      ∧ (∀ i, ∃ r : ℝ, m ((c : Thread nD τ).loc main_arg2) i = (r : EReal))
      ∧ (∀ i, ∃ r : ℝ, m ((c : Thread nD τ).loc main_arg3) i = (r : EReal))) :
    θ_run (defs (F := Ideal)) (onTc (τ := τ) (main (F := Ideal))) ⟨m, fun _ => 0, ρ⟩ fun r => ∀ c : Dev nD,
      r.2.mem ((c : Thread nD τ).loc main_v7)
          = Cert.Spec.refOut (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans (result_eq m ρ c (hfin c).1 (hfin c).2.1 (hfin c).2.2.1 (hfin c).2.2.2), (h c).2⟩)
    (KerRun.run_named (F := Ideal) m ρ)

end Cert.KernelIdeal.KerValue

end
-- ==== Proof.LibScatterWhole.lean ====
/-
  Two replacing scatters (the body returns the update) read whole or at an entry, for every extent.

  * An [m, n] array of updates scattered into an [m, n] operand with no index coordinates at all — every update axis is
    a window axis and no operand axis is named by the index vector — lands update (a, b) on entry (a, b): the result IS
    the array of updates.
  * An [n] vector of updates scattered into a [1, n] operand along the inserted axis 0 at the index vector [0] lands
    update b on entry (0, b): the result's row 0 is the vector.
-/
import Idealize.ShloMosaic.PureOps.Ideal
import Idealize.ShloMosaic.Lib.ValueIdx
import proofs.«121754_g2000604377954742_pallasbulk_8_2_alg».proof.Proof.LibScatterSet

noncomputable section

namespace Cert.RefSide

open Idealize.ShloMosaic Idealize.ShloMosaic.ValueIdx

private theorem mem_of_list_eq {α : Type} {a : α} {l l' : List α} (h : l = l') (h' : a ∈ l') : a ∈ l := h ▸ h'
private theorem not_mem_of_list_eq {α : Type} {a : α} {l l' : List α} (h : l = l') (h' : a ∉ l') : a ∉ l := h ▸ h'

/-- With every update axis a window axis and no start index, update `j` lands on operand entry `j`. -/
theorem resultIdx_whole {m n w iv : Nat} {si : Shape}
    (wf : ScatterDims.WF ⟨2, ![m, n]⟩ si ⟨2, ![m, n]⟩ [0, 1] [] [] iv)
    (j : (⟨2, ![m, n]⟩ : Shape).Idx) (idx : IVec si w) :
    (⟨[0, 1], [], [], iv, wf⟩ : ScatterDims ⟨2, ![m, n]⟩ si ⟨2, ![m, n]⟩).resultIdx? j idx = some j := by
  have hk : (⟨[0, 1], [], [], iv, wf⟩ : ScatterDims ⟨2, ![m, n]⟩ si ⟨2, ![m, n]⟩).sKept = [0, 1] := rfl
  have key : ∀ a, (⟨[0, 1], [], [], iv, wf⟩ : ScatterDims ⟨2, ![m, n]⟩ si ⟨2, ![m, n]⟩).start j idx a
      + ((⟨[0, 1], [], [], iv, wf⟩ : ScatterDims ⟨2, ![m, n]⟩ si ⟨2, ![m, n]⟩).window j a : Int) = ((j a).val : Int) := fun a => by
    have hs : (⟨[0, 1], [], [], iv, wf⟩ : ScatterDims ⟨2, ![m, n]⟩ si ⟨2, ![m, n]⟩).start j idx a = 0 := by
      unfold ScatterDims.start
      exact dif_neg List.not_mem_nil
    have hw : (⟨[0, 1], [], [], iv, wf⟩ : ScatterDims ⟨2, ![m, n]⟩ si ⟨2, ![m, n]⟩).window j a = (j a).val := by
      unfold ScatterDims.window
      match a with
      | ⟨0, _⟩ => exact (dif_pos (mem_of_list_eq hk (List.mem_cons_self ..))).trans rfl
      | ⟨1, _⟩ => exact (dif_pos (mem_of_list_eq hk (List.mem_cons_of_mem _ (List.mem_cons_self ..)))).trans rfl
    rw [hs, hw, Int.zero_add]
  unfold ScatterDims.resultIdx?
  rw [dif_pos (fun a => by rw [key a]; have := (j a).isLt; omega)]
  refine congrArg some (funext fun a => Fin.ext ?_)
  show ((⟨[0, 1], [], [], iv, wf⟩ : ScatterDims ⟨2, ![m, n]⟩ si ⟨2, ![m, n]⟩).start j idx a
    + ((⟨[0, 1], [], [], iv, wf⟩ : ScatterDims ⟨2, ![m, n]⟩ si ⟨2, ![m, n]⟩).window j a : Int)).toNat = (j a).val
  rw [key a]; exact Int.toNat_natCast _

/-- So the scatter replaces the whole operand by the updates. -/
theorem scatter_whole {α : Type} {m n w iv : Nat} {si : Shape}
    (wf : ScatterDims.WF ⟨2, ![m, n]⟩ si ⟨2, ![m, n]⟩ [0, 1] [] [] iv)
    (x : (⟨2, ![m, n]⟩ : Shape).Idx → α) (idx : IVec si w) (upd : (⟨2, ![m, n]⟩ : Shape).Idx → α) :
    Host.scatter (⟨[0, 1], [], [], iv, wf⟩ : ScatterDims ⟨2, ![m, n]⟩ si ⟨2, ![m, n]⟩) (fun _ b => b) x idx upd = upd := by
  funext p
  refine ScatterSet.scatter_set_hit _ x idx upd p p (resultIdx_whole wf p idx) fun j hj => ?_
  rw [resultIdx_whole wf j idx] at hj
  rw [Option.some.inj hj]

/-- Along the inserted axis 0 at start index 0, update `j` lands on operand entry (0, j). -/
theorem resultIdx_row {n w : Nat}
    (wf : ScatterDims.WF ⟨2, ![1, n]⟩ ⟨1, ![1]⟩ ⟨1, ![n]⟩ [0] [0] [0] 0)
    (j : (⟨1, ![n]⟩ : Shape).Idx) (idx : IVec ⟨1, ![1]⟩ w) (hidx : ∀ q, idx q = 0#w) :
    (⟨[0], [0], [0], 0, wf⟩ : ScatterDims ⟨2, ![1, n]⟩ ⟨1, ![1]⟩ ⟨1, ![n]⟩).resultIdx? j idx = some (ix2 (0 : Fin 1) (j 0)) := by
  have hk : (⟨[0], [0], [0], 0, wf⟩ : ScatterDims ⟨2, ![1, n]⟩ ⟨1, ![1]⟩ ⟨1, ![n]⟩).sKept = [1] := rfl
  have key : ∀ a, (⟨[0], [0], [0], 0, wf⟩ : ScatterDims ⟨2, ![1, n]⟩ ⟨1, ![1]⟩ ⟨1, ![n]⟩).start j idx a
      + ((⟨[0], [0], [0], 0, wf⟩ : ScatterDims ⟨2, ![1, n]⟩ ⟨1, ![1]⟩ ⟨1, ![n]⟩).window j a : Int)
        = (((ix2 (0 : Fin 1) (j 0) : (⟨2, ![1, n]⟩ : Shape).Idx) a).val : Int) := fun a => by
    match a with
    | ⟨0, h0⟩ =>
      have hs : (⟨[0], [0], [0], 0, wf⟩ : ScatterDims ⟨2, ![1, n]⟩ ⟨1, ![1]⟩ ⟨1, ![n]⟩).start j idx ⟨0, h0⟩ = 0 := by
        unfold ScatterDims.start
        refine (dif_pos (show (⟨0, h0⟩ : Fin (⟨2, ![1, n]⟩ : Shape).rank) ∈ [(0 : Fin (⟨2, ![1, n]⟩ : Shape).rank)] from
          List.mem_cons_self ..)).trans ?_
        rw [hidx]; exact BitVec.toInt_zero
      have hw : (⟨[0], [0], [0], 0, wf⟩ : ScatterDims ⟨2, ![1, n]⟩ ⟨1, ![1]⟩ ⟨1, ![n]⟩).window j ⟨0, h0⟩ = 0 := by
        unfold ScatterDims.window
        exact dif_neg (not_mem_of_list_eq hk fun h =>
          absurd (congrArg Fin.val (List.mem_singleton.1 h)) (by decide : ¬ (0 : Nat) = 1))
      rw [hs, hw]; rfl
    | ⟨1, h1⟩ =>
      have hs : (⟨[0], [0], [0], 0, wf⟩ : ScatterDims ⟨2, ![1, n]⟩ ⟨1, ![1]⟩ ⟨1, ![n]⟩).start j idx ⟨1, h1⟩ = 0 := by
        unfold ScatterDims.start
        exact dif_neg fun h => absurd (congrArg Fin.val (List.mem_singleton.1 h)) (by decide : ¬ (1 : Nat) = 0)
      have hw : (⟨[0], [0], [0], 0, wf⟩ : ScatterDims ⟨2, ![1, n]⟩ ⟨1, ![1]⟩ ⟨1, ![n]⟩).window j ⟨1, h1⟩ = (j 0).val := by
        unfold ScatterDims.window
        exact (dif_pos (mem_of_list_eq hk (List.mem_cons_self ..))).trans rfl
      rw [hs, hw, Int.zero_add]
  unfold ScatterDims.resultIdx?
  rw [dif_pos (fun a => by rw [key a]; have := ((ix2 (0 : Fin 1) (j 0) : (⟨2, ![1, n]⟩ : Shape).Idx) a).isLt; omega)]
  refine congrArg some (funext fun a => Fin.ext ?_)
  show ((⟨[0], [0], [0], 0, wf⟩ : ScatterDims ⟨2, ![1, n]⟩ ⟨1, ![1]⟩ ⟨1, ![n]⟩).start j idx a
    + ((⟨[0], [0], [0], 0, wf⟩ : ScatterDims ⟨2, ![1, n]⟩ ⟨1, ![1]⟩ ⟨1, ![n]⟩).window j a : Int)).toNat = _
  rw [key a]; exact Int.toNat_natCast _

/-- So row 0 of the result is the vector of updates. -/
theorem scatter_row_apply {α : Type} {n w : Nat}
    (wf : ScatterDims.WF ⟨2, ![1, n]⟩ ⟨1, ![1]⟩ ⟨1, ![n]⟩ [0] [0] [0] 0)
    (x : (⟨2, ![1, n]⟩ : Shape).Idx → α) (idx : IVec ⟨1, ![1]⟩ w) (hidx : ∀ q, idx q = 0#w)
    (upd : (⟨1, ![n]⟩ : Shape).Idx → α) (b : Fin n) :
    Host.scatter (⟨[0], [0], [0], 0, wf⟩ : ScatterDims ⟨2, ![1, n]⟩ ⟨1, ![1]⟩ ⟨1, ![n]⟩) (fun _ b => b) x idx upd
      (ix2 (0 : Fin 1) b) = upd (ix1 b) := by
  refine ScatterSet.scatter_set_hit _ x idx upd (ix2 (0 : Fin 1) b) (ix1 b) (resultIdx_row wf (ix1 b) idx hidx) fun j hj => ?_
  rw [resultIdx_row wf j idx hidx] at hj
  have h0 : j 0 = b := congrFun (Option.some.inj hj) 1
  have hjb : j = ix1 b := funext fun d => by
    match d with
    | ⟨0, _⟩ => exact h0
  rw [hjb]

end Cert.RefSide

end
-- ==== Proof.RefHost.lean ====
/-
  The five arrays the region reads, as the host operations before it leave them, in terms of the arguments
  x : [2048, 1024], w1 : [4096, 1024], b1 : [4096], w2 : [1024, 4096], b2 : [1024]:

      the rows array           is x itself;
      the first-layer matrix   at (k, h) is w1[h, k]   (w1 transposed, written over a zero array);
      the first bias row       at (0, h) is b1[h]      (b1 written into row 0 of a zero [1, 4096] array);
      the second-layer matrix  at (h, o) is w2[o, h]   (w2 transposed, written over a zero array);
      the second bias row      at (0, o) is b2[o]      (b2 written into row 0 of a zero [1, 1024] array).
-/
import proofs.«121754_g2000604377954742_pallasbulk_8_2_alg».proof.Proof.Gen.ReferenceIdeal.Frame
import proofs.«121754_g2000604377954742_pallasbulk_8_2_alg».proof.Proof.LibScatterWhole
import Idealize.ShloMosaic.Lib.Pipeline.Value

noncomputable section

namespace Cert.RefSide

open Cert.ReferenceIdeal Cert.ReferenceIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The rows array is the first argument. -/
theorem V_rows (c : Dev nD) :
    (V m c main_v13 : S2048x1024.Idx → EReal) = m ((c : Thread nD τ).loc main_arg0) := by
  dsimp only [Gen.V, Gen.hostOps0]
  after_results
  exact scatter_whole _ _ _ _

/-- The first-layer matrix at (k, h) is the second argument at (h, k). -/
theorem V_layer1 (c : Dev nD) (k : Fin 1024) (h : Fin 4096) :
    (V m c main_v2 : S1024x4096.Idx → EReal) (ix2 k h)
      = (m ((c : Thread nD τ).loc main_arg1) : S4096x1024.Idx → EReal) (ix2 h k) := by
  dsimp only [Gen.V, Gen.hostOps0]
  after_results
  refine (congrFun (scatter_whole _ _ _ _) (ix2 k h)).trans ?_
  exact transpose_apply [1, 0] _ _ (ix2 k h) (ix2 h k) fun b => by
    match b with
    | ⟨0, _⟩ => rfl
    | ⟨1, _⟩ => rfl

/-- The first bias row at (0, h) is the third argument at h. -/
theorem V_bias1 (c : Dev nD) (h : Fin 4096) :
    (V m c main_v8 : S1x4096.Idx → EReal) (ix2 (0 : Fin 1) h)
      = (m ((c : Thread nD τ).loc main_arg2) : S4096.Idx → EReal) (ix1 h) := by
  dsimp only [Gen.V, Gen.hostOps0]
  after_results
  exact scatter_row_apply _ _ _ (fun _ => rfl) _ h

/-- The second-layer matrix at (h, o) is the fourth argument at (o, h). -/
theorem V_layer2 (c : Dev nD) (h : Fin 4096) (o : Fin 1024) :
    (V m c main_v5 : S4096x1024.Idx → EReal) (ix2 h o)
      = (m ((c : Thread nD τ).loc main_arg3) : S1024x4096.Idx → EReal) (ix2 o h) := by
  dsimp only [Gen.V, Gen.hostOps0]
  after_results
  refine (congrFun (scatter_whole _ _ _ _) (ix2 h o)).trans ?_
  exact transpose_apply [1, 0] _ _ (ix2 h o) (ix2 o h) fun b => by
    match b with
    | ⟨0, _⟩ => rfl
    | ⟨1, _⟩ => rfl

/-- The second bias row at (0, o) is the fifth argument at o. -/
theorem V_bias2 (c : Dev nD) (o : Fin 1024) :
    (V m c main_v11 : S1x1024.Idx → EReal) (ix2 (0 : Fin 1) o)
      = (m ((c : Thread nD τ).loc main_arg4) : S1024.Idx → EReal) (ix1 o) := by
  dsimp only [Gen.V, Gen.hostOps0]
  after_results
  exact scatter_row_apply _ _ _ (fun _ => rfl) _ o

end Cert.RefSide

end
-- ==== Proof.LibMatmulRows.lean ====
/-
  A product of an m×k by a k×n matrix into a zero accumulator, at the exact reading of the floats, read at one entry:

      (A · B)[a, b] = Σ_c A[a, c] · B[c, b],

  the sum over the one contracted coordinate. Also a row vector [1, n] spread over m rows read at an entry: B[0, b].
  Both for every m, k, n; sums are over the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefSide

open Idealize.ShloMosaic Idealize.ShloMosaic.ValueIdx

/-- Rows times columns: contracting the left operand's axis 1 with the right operand's axis 0, into a zero accumulator. -/
theorem matmul_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row [1, n] spread over m rows, read at (a, b), is the row at (0, b). -/
theorem broadcast_row_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => exact (if_pos rfl).symm
  | ⟨1, _⟩ =>
    by_cases h1 : n = 1
    · subst h1
      show (b : Nat) = if (1 : Nat) = 1 then 0 else _
      rw [if_pos rfl]; omega
    · exact (if_neg h1).symm

end Cert.RefSide

end
-- ==== Proof.RefPayload.lean ====
/-
  The body's arithmetic read at one entry (a, o) of a block: with x a [128, 1024] block of rows, u the [1024, 4096]
  first-layer matrix, p the [1, 4096] first bias row, v the [4096, 1024] second-layer matrix and q the [1, 1024] second
  bias row,

      pay[a, o] = (Σ_h ((Σ_k x[a,k] · u[k,h]) + p[0,h]) · v[h,o]) + q[0,o].

  Two products into zero accumulators, each followed by the addition of a bias row spread over the 128 rows.
-/
import proofs.«121754_g2000604377954742_pallasbulk_8_2_alg».proof.Proof.Gen.ReferenceIdeal.Skeleton
import proofs.«121754_g2000604377954742_pallasbulk_8_2_alg».proof.Proof.LibMatmulRows

noncomputable section

open scoped BigOperators

namespace Cert.RefSide

open Cert.ReferenceIdeal Cert.ReferenceIdeal.Gen
open Idealize.ShloMosaic Idealize.ShloMosaic.ValueIdx

/-- The first layer at (a, h): the product's entry plus the bias row's. -/
theorem hidden_apply (x : FVec Ideal S128x1024 .f32) (u : FVec Ideal S1024x4096 .f32) (p : FVec Ideal S1x4096 .f32)
    (a : Fin 128) (h : Fin 4096) :
    addf (matmul dot_S128x1024_S1024x4096_S128x4096_1_0_0_1_n_n none x u (constant S128x4096 .f32 0x00000000#32))
        (broadcastTo S128x4096 p broadcasts_S1x4096_S128x4096) (ix2 a h)
      = (∑ k : Fin 1024, x (ix2 a k) * u (ix2 k h)) + p (ix2 (0 : Fin 1) h) :=
  (addf_apply _ _ _).trans
    (congrArg₂ (· + ·) (matmul_rows_cols_apply _ none x u a h) (broadcast_row_apply p _ a h))

/-- The payload at (a, o). -/
theorem pay_apply (x : Vec Ideal S128x1024 .f32) (u : Vec Ideal S1024x4096 .f32) (p : Vec Ideal S1x4096 .f32)
    (v : Vec Ideal S4096x1024 .f32) (q : Vec Ideal S1x1024 .f32) (a : Fin 128) (o : Fin 1024) :
    k0_pay1 x u p v q (ix2 a o)
      = (∑ h : Fin 4096, ((∑ k : Fin 1024, x (ix2 a k) * u (ix2 k h)) + p (ix2 (0 : Fin 1) h)) * v (ix2 h o))
        + q (ix2 (0 : Fin 1) o) := by
  unfold k0_pay1
  simp only [shapeCast_self]
  refine (addf_apply _ _ _).trans (congrArg₂ (· + ·) ?_ (broadcast_row_apply q _ a o))
  refine (matmul_rows_cols_apply _ none _ v a o).trans (Finset.sum_congr rfl fun h _ => ?_)
  exact congrArg (· * v (ix2 h o)) (hidden_apply x u p a h)

end Cert.RefSide

end
-- ==== Proof.RefRun.lean ====
/-
  The reference program's result array is the two-layer linear map of the five arguments (Cert.Spec.refOut).

  The region runs the body once per block of 128 rows. At point t the body reads rows 128·t … 128·t + 127 of the rows
  array, the two matrices and the two bias rows whole, and writes block t of the result: entry (a, o) of the block is
  (Σ_h ((Σ_k x[128·t + a, k] · u[k, h]) + p[0, h]) · v[h, o]) + q[0, o]. The arrays the region reads are the arguments
  re-laid (x itself, u = w1 transposed, p's row 0 = b1, v = w2 transposed, q's row 0 = b2), so that entry is refOut at
  (128·t + a, o). Row r of the result lies in the block of point r / 128, so the 16 blocks cover the array.
-/
import proofs.«121754_g2000604377954742_pallasbulk_8_2_alg».proof.Proof.Spec
import proofs.«121754_g2000604377954742_pallasbulk_8_2_alg».proof.Proof.Gen.ReferenceIdeal.Value
import proofs.«121754_g2000604377954742_pallasbulk_8_2_alg».proof.Proof.RefHost
import proofs.«121754_g2000604377954742_pallasbulk_8_2_alg».proof.Proof.RefPayload
import Idealize.ShloMosaic.Lib.Pipeline.Value
import Idealize.ShloMosaic.Lib.Tactic

noncomputable section

open scoped BigOperators

namespace Cert.ReferenceIdeal.RefValue

open Cert.ReferenceIdeal Cert.ReferenceIdeal.Gen Cert.RefSide
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arguments on core `c`. -/
abbrev G (c : Dev nD) : S2048x1024.Idx → EReal :=
  Cert.Spec.refOut (m ((c : Thread nD τ).loc main_arg0)) (m ((c : Thread nD τ).loc main_arg1))
    (m ((c : Thread nD τ).loc main_arg2)) (m ((c : Thread nD τ).loc main_arg3)) (m ((c : Thread nD τ).loc main_arg4))

/-- The index maps over the 16 points: the rows window and the result window are at block (t, 0), the four whole-array
    windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the result is some point's. -/
theorem idx_onto : ∀ q : Fin 16, ∃ t : Fin cfg0.N, win0_5.index t (0 : Fin 2) = q.val ∧ win0_5.index t (1 : Fin 2) = 0 :=
  (by decide +kernel : ∀ q : Fin 16, ∃ t : Fin grid0.N, win0_5.index t (0 : Fin 2) = q.val ∧ win0_5.index t (1 : Fin 2) = 0)

/-! ## The input blocks at a point, read at an entry -/

/-- The rows block at point t, entry (a, k), is the first argument at row 128·t + a. -/
theorem rows_blk (c : Dev nD) (t : Fin cfg0.N) (a : Fin 128) (k : Fin 1024) (r : Fin 2048) (hr : r.val = t.val * 128 + a.val) :
    (iblk m c 0 t : Vec Ideal S128x1024 .f32) (ix2 a k)
      = (m ((c : Thread nD τ).loc main_arg0) : S2048x1024.Idx → EReal) (ix2 r k) := by
  obtain ⟨e0, e1, -⟩ := idx_facts t
  unfold iblk
  rw [View.read_apply, cast_eq]
  refine Eq.trans (congrFun (V_rows m c) _)
    (congrArg (m ((c : Thread nD τ).loc main_arg0) : S2048x1024.Idx → EReal) (funext fun ax => Fin.ext ?_))
  match ax with
  | ⟨0, _⟩ => show win0_0.index t (0 : Fin 2) * 128 + 1 * a.val = r.val; rw [e0, hr]; omega
  | ⟨1, _⟩ => show win0_0.index t (1 : Fin 2) * 1024 + 1 * k.val = k.val; rw [e1]; omega

/-- The first-layer matrix's block is the whole matrix: entry (k, h) is the second argument at (h, k). -/
theorem layer1_blk (c : Dev nD) (t : Fin cfg0.N) (k : Fin 1024) (h : Fin 4096) :
    (iblk m c 1 t : Vec Ideal S1024x4096 .f32) (ix2 k h)
      = (m ((c : Thread nD τ).loc main_arg1) : S4096x1024.Idx → EReal) (ix2 h k) := by
  obtain ⟨-, -, e0, e1, -⟩ := idx_facts t
  unfold iblk
  rw [View.read_apply, cast_eq]
  refine Eq.trans (congrArg (V m c main_v2 : S1024x4096.Idx → EReal) (funext fun ax => Fin.ext ?_)) (V_layer1 m c k h)
  match ax with
  | ⟨0, _⟩ => show win0_1.index t (0 : Fin 2) * 1024 + 1 * k.val = k.val; rw [e0]; omega
  | ⟨1, _⟩ => show win0_1.index t (1 : Fin 2) * 4096 + 1 * h.val = h.val; rw [e1]; omega

/-- The first bias row's block is the whole row: entry (0, h) is the third argument at h. -/
theorem bias1_blk (c : Dev nD) (t : Fin cfg0.N) (h : Fin 4096) :
    (iblk m c 2 t : Vec Ideal S1x4096 .f32) (ix2 (0 : Fin 1) h)
      = (m ((c : Thread nD τ).loc main_arg2) : S4096.Idx → EReal) (ix1 h) := by
  obtain ⟨-, -, -, -, e0, e1, -⟩ := idx_facts t
  unfold iblk
  rw [View.read_apply, cast_eq]
  refine Eq.trans (congrArg (V m c main_v8 : S1x4096.Idx → EReal) (funext fun ax => Fin.ext ?_)) (V_bias1 m c h)
  match ax with
  | ⟨0, _⟩ => show win0_2.index t (0 : Fin 2) * 1 + 1 * 0 = 0; rw [e0]
  | ⟨1, _⟩ => show win0_2.index t (1 : Fin 2) * 4096 + 1 * h.val = h.val; rw [e1]; omega

/-- The second-layer matrix's block is the whole matrix: entry (h, o) is the fourth argument at (o, h). -/
theorem layer2_blk (c : Dev nD) (t : Fin cfg0.N) (h : Fin 4096) (o : Fin 1024) :
    (iblk m c 3 t : Vec Ideal S4096x1024 .f32) (ix2 h o)
      = (m ((c : Thread nD τ).loc main_arg3) : S1024x4096.Idx → EReal) (ix2 o h) := by
  obtain ⟨-, -, -, -, -, -, e0, e1, -⟩ := idx_facts t
  unfold iblk
  rw [View.read_apply, cast_eq]
  refine Eq.trans (congrArg (V m c main_v5 : S4096x1024.Idx → EReal) (funext fun ax => Fin.ext ?_)) (V_layer2 m c h o)
  match ax with
  | ⟨0, _⟩ => show win0_3.index t (0 : Fin 2) * 4096 + 1 * h.val = h.val; rw [e0]; omega
  | ⟨1, _⟩ => show win0_3.index t (1 : Fin 2) * 1024 + 1 * o.val = o.val; rw [e1]; omega

/-- The second bias row's block is the whole row: entry (0, o) is the fifth argument at o. -/
theorem bias2_blk (c : Dev nD) (t : Fin cfg0.N) (o : Fin 1024) :
    (iblk m c 4 t : Vec Ideal S1x1024 .f32) (ix2 (0 : Fin 1) o)
      = (m ((c : Thread nD τ).loc main_arg4) : S1024.Idx → EReal) (ix1 o) := by
  obtain ⟨-, -, -, -, -, -, -, -, e0, e1, -⟩ := idx_facts t
  unfold iblk
  rw [View.read_apply, cast_eq]
  refine Eq.trans (congrArg (V m c main_v11 : S1x1024.Idx → EReal) (funext fun ax => Fin.ext ?_)) (V_bias2 m c o)
  match ax with
  | ⟨0, _⟩ => show win0_4.index t (0 : Fin 2) * 1 + 1 * 0 = 0; rw [e0]
  | ⟨1, _⟩ => show win0_4.index t (1 : Fin 2) * 1024 + 1 * o.val = o.val; rw [e1]; omega

/-! ## What a point writes back -/

/-- The body's result at point t, entry (a, o), is the two-layer map at row 128·t + a. -/
theorem pay_blk (c : Dev nD) (t : Fin cfg0.N) (a : Fin 128) (o : Fin 1024) (r : Fin 2048) (hr : r.val = t.val * 128 + a.val) :
    k0_pay1 (iblk m c 0 t) (iblk m c 1 t) (iblk m c 2 t) (iblk m c 3 t) (iblk m c 4 t) (ix2 a o) = G m c (ix2 r o) := by
  refine (pay_apply (iblk m c 0 t) (iblk m c 1 t) (iblk m c 2 t) (iblk m c 3 t) (iblk m c 4 t) a o).trans ?_
  unfold G
  rw [Cert.Spec.refOut_apply]
  unfold Cert.Spec.twoLayer Cert.Spec.hidden
  refine congrArg₂ (· + ·) (Finset.sum_congr rfl fun h _ => ?_) (bias2_blk m c t o)
  refine congrArg₂ (· * ·) (congrArg₂ (· + ·) (Finset.sum_congr rfl fun k _ => ?_) (bias1_blk m c t h)) (layer2_blk m c t h o)
  exact congrArg₂ (· * ·) (rows_blk m c t a k r hr) (layer1_blk m c t k h)

/-- Entry (a, o) of the body's result at point t is the two-layer map at the array index the result window's block t puts
    there. -/
theorem blk_entry (c : Dev nD) (t : Fin cfg0.N) (a : Fin 128) (o : Fin 1024) :
    k0_pay1 (iblk m c 0 t) (iblk m c 1 t) (iblk m c 2 t) (iblk m c 3 t) (iblk m c 4 t) (ix2 a o)
      = G m c (((cfg0.win 5).blk t).view.emb (ix2 a o)) := by
  obtain ⟨-, -, -, -, -, -, -, -, -, -, e0, e1⟩ := idx_facts t
  have hN : t.val < 16 := lt_of_lt_of_eq t.isLt N_0
  refine (pay_blk m c t a o ⟨t.val * 128 + a.val, by omega⟩ rfl).trans (congrArg (G m c) (funext fun ax => Fin.ext ?_))
  match ax with
  | ⟨0, _⟩ => show t.val * 128 + a.val = win0_5.index t (0 : Fin 2) * 128 + 1 * a.val; rw [e0]; omega
  | ⟨1, _⟩ => show o.val = win0_5.index t (1 : Fin 2) * 1024 + 1 * o.val; rw [e1]; omega

/-- The same at any index of the block. -/
theorem blk_entry' (c : Dev nD) (t : Fin cfg0.N) (j : S128x1024.Idx) :
    k0_pay1 (iblk m c 0 t) (iblk m c 1 t) (iblk m c 2 t) (iblk m c 3 t) (iblk m c 4 t) j
      = G m c (((cfg0.win 5).blk t).view.emb j) := by
  obtain ⟨a, o, rfl⟩ : ∃ (a : Fin 128) (o : Fin 1024), j = ix2 a o := ⟨j 0, j 1, eq_ix2 j⟩
  exact blk_entry m c t a o

/-- WHAT POINT t WRITES BACK is block t of the two-layer map of the arguments. -/
theorem flushed_eq (c : Dev nD) (t : Fin cfg0.N) :
    (dats m 0 c).flushed 5 t = ((cfg0.win 5).blk t).view.read (Elt Ideal) (G m c) := by
  rw [Value.flushed5]
  unfold Gen.out0_5
  rw [View.canon_unit_zero hz]
  simp only [View.ld_unit_zero (S := S128x1024) hz, View.ld_unit_zero (S := S1024x4096) hz,
    View.ld_unit_zero (S := S1x4096) hz, View.ld_unit_zero (S := S4096x1024) hz, View.ld_unit_zero (S := S1x1024) hz]
  funext j
  rw [View.read_apply, cast_eq]
  exact blk_entry' m c t j

/-! ## The blocks cover the array -/

/-- An index is in point t's block iff each coordinate is in the block's range on its axis. -/
theorem mem_blk (t : Fin cfg0.N) (i : S2048x1024.Idx) :
    i ∈ ((cfg0.win 5).blk t).view.set ↔ ∀ a : Fin 2, win0_5.index t a * S128x1024.size a ≤ (i a).val
      ∧ (i a).val < win0_5.index t a * S128x1024.size a + S128x1024.size a := by
  show i ∈ ((View.whole main_v14).slice (win0_5.rect t)).set ↔ _
  rw [View.set_slice_whole, Rect.mem_set_unit]
  exact Iff.rfl

/-- Row r lies in the block of the point whose block row is r / 128. -/
theorem cover (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  obtain ⟨t, q0, q1⟩ := idx_onto ⟨(i 0).val / 128, by omega⟩
  have q0' : win0_5.index t (0 : Fin 2) = (i 0).val / 128 := q0
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 1024 ≤ (i 1).val ∧ (i 1).val < win0_5.index t (1 : Fin 2) * 1024 + 1024
    omega

/-- THE ARRAY after the run is the two-layer map of the arguments. -/
theorem final (c : Dev nD) : (dats m 0 c).arrAt 5 cfg0.N = G m c :=
  (dats m 0 c).arrAt_eq_of_cover 5 (G m c) (fun t _ => flushed_eq m c t) cover

/-! ## The run, read -/

/-- Every weakly fair execution of the reference terminates with the result array at the two-layer map of the arguments
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v14)
          = Cert.Spec.refOut (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.RefValue

end
-- ==== Proof.lean ====
/-
  A two-layer linear map, out = (x·w1ᵀ + b1)·w2ᵀ + b2 with x : [2048, 1024], w1 : [4096, 1024], b1 : [4096], w2 : [1024, 4096],
  b2 : [1024], computed two ways.

  The reference runs one pipelined region over 16 row bands of x: the hidden layer x·w1ᵀ + b1, then the second layer and
  its bias. The kernel first COMPOSES the two weight matrices: a region of nine points writes the [1152, 1024] matrix
  whose rows below 1024 are w1ᵀ·w2ᵀ (row k, column o: Σ_h w1[h,k]·w2[o,h]) and whose row 1024 is b1·w2ᵀ (the ninth point
  multiplies a block whose column 0 is b1); a second region of four points then computes x times the first 1024 rows,
  plus row 1024, plus b2. At the exact reading of the floats (every change of format the identity) the two results are

      (Σ_k x[r,k]·(Σ_h w1[h,k]·w2[o,h]) + Σ_h b1[h]·w2[o,h]) + b2[o]   and   (Σ_h (Σ_k x[r,k]·w1[h,k] + b1[h])·w2[o,h]) + b2[o],

  equal for real x, w1, b1, w2 by distributing the products over the sums and exchanging the two sums — which is where the
  precondition (every input finite) is used: on the extended reals distributivity fails at the infinities.

  The three frames are the launch-and-flush certificates of the three programs; the idealization rewrote nothing, so
  there is nothing to preserve.
-/
import proofs.«121754_g2000604377954742_pallasbulk_8_2_alg».proof.Defs
import proofs.«121754_g2000604377954742_pallasbulk_8_2_alg».proof.Proof.Gen.Kernel
import proofs.«121754_g2000604377954742_pallasbulk_8_2_alg».proof.Proof.Gen.KernelIdeal
import proofs.«121754_g2000604377954742_pallasbulk_8_2_alg».proof.Proof.Gen.ReferenceIdeal
import proofs.«121754_g2000604377954742_pallasbulk_8_2_alg».proof.Proof.Gen.ReferenceIdeal.Frame
import proofs.«121754_g2000604377954742_pallasbulk_8_2_alg».proof.Proof.Gen.Pre_finite_inputs
import proofs.«121754_g2000604377954742_pallasbulk_8_2_alg».proof.Proof.KernelFrameP
import proofs.«121754_g2000604377954742_pallasbulk_8_2_alg».proof.Proof.KernelIdealFrameP
import proofs.«121754_g2000604377954742_pallasbulk_8_2_alg».proof.Proof.Finite
import proofs.«121754_g2000604377954742_pallasbulk_8_2_alg».proof.Proof.KerValue
import proofs.«121754_g2000604377954742_pallasbulk_8_2_alg».proof.Proof.RefRun

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both programs end, from memories that agree on the arguments, with the result at the two-layer map of the
    arguments: the kernel's two regions compose to it because every input is real (the precondition read back), the
    reference computes it outright. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin : ∀ c : Dev Cert.KernelIdeal.nD, _ := fun c => Cert.Finite.reals _ _ _ _ _ (hpre c)
  refine ⟨fun c => Cert.Spec.refOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.KerValue.run m ρ (fun c => ⟨(hfin c).1, (hfin c).2.1, (hfin c).2.2.1, (hfin c).2.2.2.1⟩), ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
